-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000x6 : Shape := ⟨2, ![100000, 6]⟩
abbrev S100000x122 : Shape := ⟨2, ![100000, 122]⟩
abbrev S6x6 : Shape := ⟨2, ![6, 6]⟩
abbrev S6 : Shape := ⟨1, ![6]⟩
abbrev S3x128x128 : Shape := ⟨3, ![3, 128, 128]⟩
abbrev S3x128 : Shape := ⟨2, ![3, 128]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S100000x122 : S_.BroadcastsInDim S100000x122 (![] : Fin 0 → Fin S100000x122.rank)
  reducesTo_S100000x122_S_d0_1 : S100000x122.ReducesTo [0, 1] S_
  bcast_S_S6x6 : S_.BroadcastsInDim S6x6 (![] : Fin 0 → Fin S6x6.rank)
  reducesTo_S6x6_S_d0_1 : S6x6.ReducesTo [0, 1] S_
  bcast_S_S6 : S_.BroadcastsInDim S6 (![] : Fin 0 → Fin S6.rank)
  reducesTo_S6_S_d0 : S6.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part3 {F : FTy → Type} [FloatOps F] (main_v48 : IVec S_ 1) (main_v50 : IVec S3x128 1) : IVec S_ 1 :=
  let main_c_19 : IVec S_ 1 := constantI S_ 1 1#1
  let main_v51 : IVec S_ 1 := (fun x v => Host.reduce IntOp.andi x v reducesTo_S3x128_S_d0_1 h_S_) main_v50 main_c_19
  let main_v52 : IVec S_ 1 := andi main_v48 main_v51
  main_v52

def fn_part2 {F : FTy → Type} [FloatOps F] (main_arg8 : FVec F S3x128 .f32) (main_arg9 : FVec F S3x128 .f32) (main_arg10 : FVec F S3x128 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_cst_18 : FVec F S_ .f32 := constant S_ .f32 0x00000000#32
  let main_v49 : FVec F S3x128 .f32 := broadcastInDim S3x128 ![] bcast_S_S3x128 main_cst_18
  let main_v50 : IVec S3x128 1 := cmpf .oge main_arg10 main_v49
  fn_part3 (F := F) main_v48 main_v50

def fn_part1 {F : FTy → Type} [FloatOps F] (main_arg5 : FVec F S3x128x128 .f32) (main_arg6 : FVec F S3x128 .f32) (main_arg7 : FVec F S3x128 .f32) (main_arg8 : FVec F S3x128 .f32) (main_arg9 : FVec F S3x128 .f32) (main_arg10 : FVec F S3x128 .f32) (main_v13 : IVec S_ 1) (main_v16 : IVec S6 1) : IVec S_ 1 :=
  let main_c_5 : IVec S_ 1 := constantI S_ 1 1#1
  let main_v17 : IVec S_ 1 := (fun x v => Host.reduce IntOp.andi x v reducesTo_S6_S_d0 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_v33

def fn {F : FTy → Type} [FloatOps F] (main_arg0 : IVec S2x1600000 32) (main_arg1 : FVec F S100000x6 .f32) (main_arg2 : FVec F S100000x122 .f32) (main_arg3 : FVec F S6x6 .f32) (main_arg4 : FVec F S6 .f32) (main_arg5 : FVec F S3x128x128 .f32) (main_arg6 : FVec F S3x128 .f32) (main_arg7 : FVec F S3x128 .f32) (main_arg8 : FVec F S3x128 .f32) (main_arg9 : FVec F S3x128 .f32) (main_arg10 : FVec F S3x128 .f32) : IVec S_ 1 :=
  let main_v0 : FVec F S100000x6 .f32 := Host.absf main_arg1
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S100000x122 .f32 := Host.absf main_arg2
  let main_cst_0 : FVec F S_ .f32 := constant S_ .f32 0x7F800000#32
  let main_v5 : FVec F S100000x122 .f32 := broadcastInDim S100000x122 ![] bcast_S_S100000x122 main_cst_0
  let main_v6 : IVec S100000x122 1 := cmpf .olt main_v4 main_v5
  let main_c_1 : IVec S_ 1 := constantI S_ 1 1#1
  let main_v7 : IVec S_ 1 := (fun x v => Host.reduce IntOp.andi x v reducesTo_S100000x122_S_d0_1 h_S_) main_v6 main_c_1
  let main_v8 : IVec S_ 1 := andi main_v3 main_v7
  let main_v9 : FVec F S6x6 .f32 := Host.absf main_arg3
  let main_cst_2 : FVec F S_ .f32 := constant S_ .f32 0x7F800000#32
  let main_v10 : FVec F S6x6 .f32 := broadcastInDim S6x6 ![] bcast_S_S6x6 main_cst_2
  let main_v11 : IVec S6x6 1 := cmpf .olt main_v9 main_v10
  let main_c_3 : IVec S_ 1 := constantI S_ 1 1#1
  let main_v12 : IVec S_ 1 := (fun x v => Host.reduce IntOp.andi x v reducesTo_S6x6_S_d0_1 h_S_) main_v11 main_c_3
  let main_v13 : IVec S_ 1 := andi main_v8 main_v12
  let main_v14 : FVec F S6 .f32 := Host.absf main_arg4
  let main_cst_4 : FVec F S_ .f32 := constant S_ .f32 0x7F800000#32
  let main_v15 : FVec F S6 .f32 := broadcastInDim S6 ![] bcast_S_S6 main_cst_4
  let main_v16 : IVec S6 1 := cmpf .olt main_v14 main_v15
  fn_part1 (F := F) main_arg5 main_arg6 main_arg7 main_arg8 main_arg9 main_arg10 main_v13 main_v16
-- ==== Kernel.lean ====
abbrev S2x1600000 : Shape := ⟨2, ![2, 1600000]⟩
abbrev S100000x6 : Shape := ⟨2, ![100000, 6]⟩
abbrev S100000x122 : Shape := ⟨2, ![100000, 122]⟩
abbrev S6x6 : Shape := ⟨2, ![6, 6]⟩
abbrev S6 : Shape := ⟨1, ![6]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x6 : Shape := ⟨2, ![1, 6]⟩
abbrev S100000x128 : Shape := ⟨2, ![100000, 128]⟩
abbrev S1x128x128 : Shape := ⟨3, ![1, 128, 128]⟩
abbrev S128x128 : Shape := ⟨2, ![128, 128]⟩
abbrev S10000x128 : Shape := ⟨2, ![10000, 128]⟩
abbrev S1600000x128 : Shape := ⟨2, ![1600000, 128]⟩
abbrev S1x128 : Shape := ⟨2, ![1, 128]⟩
abbrev S128 : Shape := ⟨1, ![128]⟩

abbrev nBuf : Space → Nat
  | .hbm => 176
  | .vmem => 37
  | .smem => 0
  | _ => 0

abbrev hbmTy0_0 (i : Nat) : BufTy := match i % 128 with
  | 0 => ⟨S2x1600000, .i32⟩
  | 1 => ⟨S100000x6, .f32⟩
  | 2 => ⟨S100000x122, .f32⟩
  | 3 => ⟨S6x6, .f32⟩
  | 4 => ⟨S6, .f32⟩
  | 5 => ⟨S3x128x128, .f32⟩
  | 6 => ⟨S3x128, .f32⟩
  | 7 => ⟨S3x128, .f32⟩
  | 8 => ⟨S3x128, .f32⟩
  | 9 => ⟨S3x128, .f32⟩
  | 10 => ⟨S3x128, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S100000x6, .f32⟩
  | 49 => ⟨S1x6, .f32⟩
  | 50 => ⟨S100000x6, .f32⟩
  | 51 => ⟨S100000x6, .f32⟩
  | 52 => ⟨S_, .f32⟩
  | 53 => ⟨S100000x6, .f32⟩
  | 54 => ⟨S100000x6, .f32⟩
  | 55 => ⟨S100000x128, .f32⟩
  | 56 => ⟨S1x128x128, .f32⟩
  | 57 => ⟨S128x128, .f32⟩
  | 58 => ⟨S100000x128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S1600000x1, .f32⟩
  | 69 => ⟨S1600000x128, .f32⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S1x128, .f32⟩
  | 76 => ⟨S128, .f32⟩
  | 77 => ⟨S1x128, .f32⟩
  | 78 => ⟨S128, .f32⟩
  | 79 => ⟨S_, .f32⟩
  | 80 => ⟨S128, .f32⟩
  | 81 => ⟨S128, .f32⟩
  | 82 => ⟨S128, .f32⟩
  | 83 => ⟨S128, .f32⟩
  | 84 => ⟨S1x128, .f32⟩
  | 85 => ⟨S128, .f32⟩
  | 86 => ⟨S1x128, .f32⟩
  | 87 => ⟨S128, .f32⟩
  | 88 => ⟨S128, .f32⟩
  | 89 => ⟨S128, .f32⟩
  | 90 => ⟨S1x128, .f32⟩
  | 91 => ⟨S128, .f32⟩
  | 92 => ⟨S128, .f32⟩
  | 93 => ⟨S1x128, .f32⟩
  | 94 => ⟨S1x128, .f32⟩
  | 95 => ⟨S100000x128, .f32⟩
  | 96 => ⟨S1x128x128, .f32⟩
  | 97 => ⟨S128x128, .f32⟩
  | 98 => ⟨S100000x128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x1, .f32⟩
  | 109 => ⟨S1600000x128, .f32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S1x128, .f32⟩
  | 116 => ⟨S128, .f32⟩
  | 117 => ⟨S1x128, .f32⟩
  | 118 => ⟨S128, .f32⟩
  | 119 => ⟨S_, .f32⟩
  | 120 => ⟨S128, .f32⟩
  | 121 => ⟨S128, .f32⟩
  | 122 => ⟨S128, .f32⟩
  | 123 => ⟨S128, .f32⟩
  | 124 => ⟨S1x128, .f32⟩
  | 125 => ⟨S128, .f32⟩
  | 126 => ⟨S1x128, .f32⟩
  | 127 => ⟨S128, .f32⟩
  | _ => ⟨S2x1600000, .i32⟩

abbrev hbmTy0_1 (i : Nat) : BufTy := match i % 128 with
  | 0 => ⟨S128, .f32⟩
  | 1 => ⟨S128, .f32⟩
  | 2 => ⟨S1x128, .f32⟩
  | 3 => ⟨S128, .f32⟩
  | 4 => ⟨S128, .f32⟩
  | 5 => ⟨S1x128, .f32⟩
  | 6 => ⟨S1x128, .f32⟩
  | 7 => ⟨S100000x128, .f32⟩
  | 8 => ⟨S1x128x128, .f32⟩
  | 9 => ⟨S128x128, .f32⟩
  | 10 => ⟨S100000x128, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S1600000x1, .f32⟩
  | 21 => ⟨S1600000x128, .f32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S1x128, .f32⟩
  | 28 => ⟨S128, .f32⟩
  | 29 => ⟨S1x128, .f32⟩
  | 30 => ⟨S128, .f32⟩
  | 31 => ⟨S_, .f32⟩
  | 32 => ⟨S128, .f32⟩
  | 33 => ⟨S128, .f32⟩
  | 34 => ⟨S128, .f32⟩
  | 35 => ⟨S128, .f32⟩
  | 36 => ⟨S1x128, .f32⟩
  | 37 => ⟨S128, .f32⟩
  | 38 => ⟨S1x128, .f32⟩
  | 39 => ⟨S128, .f32⟩
  | 40 => ⟨S128, .f32⟩
  | 41 => ⟨S128, .f32⟩
  | 42 => ⟨S1x128, .f32⟩
  | 43 => ⟨S128, .f32⟩
  | 44 => ⟨S128, .f32⟩
  | 45 => ⟨S1x128, .f32⟩
  | 46 => ⟨S1x128, .f32⟩
  | 47 => ⟨S100000x128, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S1x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S128x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S1x128, .f32⟩
  | .local _ .vmem, ⟨32, _⟩ => ⟨S1x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call1_cst : Ref sig .tc := ⟨.hbm, 52, rfl⟩
abbrev main_call1_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_10 : Ref sig .tc := ⟨.hbm, 99, rfl⟩
abbrev main_v72 : Ref sig .tc := ⟨.hbm, 100, rfl⟩
abbrev main_v73 : Ref sig .tc := ⟨.hbm, 101, rfl⟩
abbrev main_c_11 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_12 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_13 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_c_14 : Ref sig .tc := ⟨.hbm, 139, rfl⟩
abbrev main_v108 : Ref sig .tc := ⟨.hbm, 140, rfl⟩
abbrev main_v109 : Ref sig .tc := ⟨.hbm, 141, rfl⟩
abbrev main_c_15 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_16 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_17 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg3_1 : Ref sig .tc := ⟨.vmem, 34, rfl⟩
abbrev cc5_stg4_0 : Ref sig .tc := ⟨.vmem, 35, rfl⟩
abbrev cc5_stg4_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem3_1 : DmaSem sig := 34
abbrev cc5_sem4_0 : DmaSem sig := 35
abbrev cc5_sem4_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S10000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S10000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  bcast_S_S100000x6 : S_.BroadcastsInDim S100000x6 (![] : Fin 0 → Fin S100000x6.rank)
  concatenates_S100000x122_S100000x6_S100000x128_d1 : Shape.Concatenates [S100000x122, S100000x6] S100000x128 1
  slices_S3x128x128_S1x128x128_0_0_0 : S3x128x128.Slices ![0, 0, 0] S1x128x128
  shapeCasts_S1x128x128_S128x128 : S1x128x128.ShapeCasts S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S_S128 : S_.BroadcastsInDim S128 (![] : Fin 0 → Fin S128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x6_S6x6_S100000x6_1_0_0_1_n_n_wf : DotDims.WF S100000x6 S6x6 S100000x6 [1] [0] [0] [1] [] []
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x128.size a ≤ S100000x128.size a
  hwx3_4 : ∀ i : grid3.Coords, EltTy.bits .f32 = 32 ∨ (Rect.block (s := S100000x128) S10000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S100000x128.size a
  hwx5_3 : ∀ i : grid5.Coords, EltTy.bits .f32 = 32 ∨ (Rect.block (s := S100000x128) S10000x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x128.size a ≤ S100000x128.size a
  hwx5_4 : ∀ i : grid5.Coords, EltTy.bits .f32 = 32 ∨ (Rect.block (s := S100000x128) S10000x128.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x6_S6x6_S100000x6_1_0_0_1_n_n : DotDims S100000x6 S6x6 S100000x6 where
  lhsContracting := [1]
  rhsContracting := [0]
  lhsNonContracting := [0]
  rhsNonContracting := [1]
  lhsBatch := []
  rhsBatch := []
  wf := dot_S100000x6_S6x6_S100000x6_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_v32) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v67) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v68) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v102) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v103) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S10000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v104) S10000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v104) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v106) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v107) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v120) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v138) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v139) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v104) S10000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v140) S10000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S2x1600000 : Shape := ⟨2, ![2, 1600000]⟩
abbrev S100000x6 : Shape := ⟨2, ![100000, 6]⟩
abbrev S100000x122 : Shape := ⟨2, ![100000, 122]⟩
abbrev S6x6 : Shape := ⟨2, ![6, 6]⟩
abbrev S6 : Shape := ⟨1, ![6]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x6 : Shape := ⟨2, ![1, 6]⟩
abbrev S100000x128 : Shape := ⟨2, ![100000, 128]⟩
abbrev S1x128x128 : Shape := ⟨3, ![1, 128, 128]⟩
abbrev S128x128 : Shape := ⟨2, ![128, 128]⟩
abbrev S1600000x128 : Shape := ⟨2, ![1600000, 128]⟩
abbrev S1x128 : Shape := ⟨2, ![1, 128]⟩
abbrev S128 : Shape := ⟨1, ![128]⟩

abbrev nBuf : Space → Nat
  | .hbm => 211
  | .vmem => 0
  | .smem => 0
  | _ => 0

abbrev hbmTy0_0 (i : Nat) : BufTy := match i % 128 with
  | 0 => ⟨S2x1600000, .i32⟩
  | 1 => ⟨S100000x6, .f32⟩
  | 2 => ⟨S100000x122, .f32⟩
  | 3 => ⟨S6x6, .f32⟩
  | 4 => ⟨S6, .f32⟩
  | 5 => ⟨S3x128x128, .f32⟩
  | 6 => ⟨S3x128, .f32⟩
  | 7 => ⟨S3x128, .f32⟩
  | 8 => ⟨S3x128, .f32⟩
  | 9 => ⟨S3x128, .f32⟩
  | 10 => ⟨S3x128, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S100000x6, .f32⟩
  | 49 => ⟨S1x6, .f32⟩
  | 50 => ⟨S100000x6, .f32⟩
  | 51 => ⟨S100000x6, .f32⟩
  | 52 => ⟨S_, .f32⟩
  | 53 => ⟨S100000x6, .f32⟩
  | 54 => ⟨S100000x6, .f32⟩
  | 55 => ⟨S100000x128, .f32⟩
  | 56 => ⟨S1x128x128, .f32⟩
  | 57 => ⟨S128x128, .f32⟩
  | 58 => ⟨S100000x128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S1600000x1, .f32⟩
  | 69 => ⟨S1600000x128, .f32⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S1x128, .f32⟩
  | 76 => ⟨S128, .f32⟩
  | 77 => ⟨S1x128, .f32⟩
  | 78 => ⟨S100000x128, .f32⟩
  | 79 => ⟨S100000x128, .f32⟩
  | 80 => ⟨S1x128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S128, .f32⟩
  | 87 => ⟨S1x128, .f32⟩
  | 88 => ⟨S128, .f32⟩
  | 89 => ⟨S_, .f32⟩
  | 90 => ⟨S128, .f32⟩
  | 91 => ⟨S128, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S1x128, .f32⟩
  | 98 => ⟨S128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S1x128x128, .f32⟩
  | 106 => ⟨S128x128, .f32⟩
  | 107 => ⟨S100000x128, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x128, .f32⟩
  | 117 => ⟨S1600000x1, .f32⟩
  | 118 => ⟨S1600000x128, .f32⟩
  | 119 => ⟨S1600000x128, .f32⟩
  | 120 => ⟨S_, .f32⟩
  | 121 => ⟨S100000x128, .f32⟩
  | 122 => ⟨S1600000x1, .i32⟩
  | 123 => ⟨S100000x128, .f32⟩
  | 124 => ⟨S1x128, .f32⟩
  | 125 => ⟨S128, .f32⟩
  | 126 => ⟨S1x128, .f32⟩
  | 127 => ⟨S100000x128, .f32⟩
  | _ => ⟨S2x1600000, .i32⟩

abbrev hbmTy0_1 (i : Nat) : BufTy := match i % 128 with
  | 0 => ⟨S100000x128, .f32⟩
  | 1 => ⟨S1x128, .f32⟩
  | 2 => ⟨S128, .f32⟩
  | 3 => ⟨S1x128, .f32⟩
  | 4 => ⟨S100000x128, .f32⟩
  | 5 => ⟨S100000x128, .f32⟩
  | 6 => ⟨S1x128, .f32⟩
  | 7 => ⟨S128, .f32⟩
  | 8 => ⟨S1x128, .f32⟩
  | 9 => ⟨S128, .f32⟩
  | 10 => ⟨S_, .f32⟩
  | 11 => ⟨S128, .f32⟩
  | 12 => ⟨S128, .f32⟩
  | 13 => ⟨S128, .f32⟩
  | 14 => ⟨S128, .f32⟩
  | 15 => ⟨S1x128, .f32⟩
  | 16 => ⟨S100000x128, .f32⟩
  | 17 => ⟨S100000x128, .f32⟩
  | 18 => ⟨S1x128, .f32⟩
  | 19 => ⟨S128, .f32⟩
  | 20 => ⟨S1x128, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S100000x128, .f32⟩
  | 30 => ⟨S1x128x128, .f32⟩
  | 31 => ⟨S128x128, .f32⟩
  | 32 => ⟨S100000x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x128, .f32⟩
  | 42 => ⟨S1600000x1, .f32⟩
  | 43 => ⟨S1600000x128, .f32⟩
  | 44 => ⟨S1600000x128, .f32⟩
  | 45 => ⟨S_, .f32⟩
  | 46 => ⟨S100000x128, .f32⟩
  | 47 => ⟨S1600000x1, .i32⟩
  | 48 => ⟨S100000x128, .f32⟩
  | 49 => ⟨S1x128, .f32⟩
  | 50 => ⟨S128, .f32⟩
  | 51 => ⟨S1x128, .f32⟩
  | 52 => ⟨S100000x128, .f32⟩
  | 53 => ⟨S100000x128, .f32⟩
  | 54 => ⟨S1x128, .f32⟩
  | 55 => ⟨S128, .f32⟩
  | 56 => ⟨S1x128, .f32⟩
  | 57 => ⟨S100000x128, .f32⟩
  | 58 => ⟨S100000x128, .f32⟩
  | 59 => ⟨S1x128, .f32⟩
  | 60 => ⟨S128, .f32⟩
  | 61 => ⟨S1x128, .f32⟩
  | 62 => ⟨S128, .f32⟩
  | 63 => ⟨S_, .f32⟩
  | 64 => ⟨S128, .f32⟩
  | 65 => ⟨S128, .f32⟩
  | 66 => ⟨S128, .f32⟩
  | 67 => ⟨S128, .f32⟩
  | 68 => ⟨S1x128, .f32⟩
  | 69 => ⟨S100000x128, .f32⟩
  | 70 => ⟨S100000x128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S100000x128, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call1_cst : Ref sig .tc := ⟨.hbm, 52, rfl⟩
abbrev main_call1_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_9 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_call2_cst : Ref sig .tc := ⟨.hbm, 102, rfl⟩
abbrev main_call2_v0 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_10 : Ref sig .tc := ⟨.hbm, 108, rfl⟩
abbrev main_v79 : Ref sig .tc := ⟨.hbm, 109, rfl⟩
abbrev main_v80 : Ref sig .tc := ⟨.hbm, 110, rfl⟩
abbrev main_c_11 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_12 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_13 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_call3_cst : Ref sig .tc := ⟨.hbm, 151, rfl⟩
abbrev main_call3_v0 : Ref sig .tc := ⟨.hbm, 152, rfl⟩
abbrev main_v118 : Ref sig .tc := ⟨.hbm, 153, rfl⟩
abbrev main_cst_14 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_c_15 : Ref sig .tc := ⟨.hbm, 161, rfl⟩
abbrev main_v125 : Ref sig .tc := ⟨.hbm, 162, rfl⟩
abbrev main_v126 : Ref sig .tc := ⟨.hbm, 163, rfl⟩
abbrev main_c_16 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_17 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_cst_18 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_call4_cst : Ref sig .tc := ⟨.hbm, 204, rfl⟩
abbrev main_call4_v0 : Ref sig .tc := ⟨.hbm, 205, rfl⟩
abbrev main_v164 : Ref sig .tc := ⟨.hbm, 206, rfl⟩
abbrev main_cst_19 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  bcast_S_S100000x6 : S_.BroadcastsInDim S100000x6 (![] : Fin 0 → Fin S100000x6.rank)
  concatenates_S100000x122_S100000x6_S100000x128_d1 : Shape.Concatenates [S100000x122, S100000x6] S100000x128 1
  slices_S3x128x128_S1x128x128_0_0_0 : S3x128x128.Slices ![0, 0, 0] S1x128x128
  shapeCasts_S1x128x128_S128x128 : S1x128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x6_S6x6_S100000x6_1_0_0_1_n_n_wf : DotDims.WF S100000x6 S6x6 S100000x6 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x6_S6x6_S100000x6_1_0_0_1_n_n : DotDims S100000x6 S6x6 S100000x6 where
  lhsContracting := [1]
  rhsContracting := [0]
  lhsNonContracting := [0]
  rhsNonContracting := [1]
  lhsBatch := []
  rhsBatch := []
  wf := dot_S100000x6_S6x6_S100000x6_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KRun.lean ====
/-
  The idealized kernel program's run with its RESULT named.

  The program is six kernel launches among stretches of host operations.  The generated frame follows the
  buffer contents through the whole run: from the launch memory, each host stretch applies its operations
  and each launch replaces its windows' arrays by what the pipeline's write-backs leave.  After the last
  launch every unscoped buffer holds the last boundary's contents.  Read at the result buffer this names
  the program's result; read at an argument it gives back the launch contents.
-/
import proofs.«137361_j16638703305297_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the
    last boundary's contents and every argument array as launched. -/
theorem run_result : θ_run defs (onTc (τ := τ) (main (F := F))) ⟨m, fun _ => 0, ρ⟩ (fun r => ∀ c : Dev nD,
      r.2.mem ((c.tc : Thread nD τ).loc main_v140) = W16 m ρ c (Proc.devRef .tc main_v140)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v140 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c)⟩)

end Cert.KernelIdeal.KRun

end
-- ==== Proof.Chain0.lean ====
/-
  The contents of the idealized kernel program's buffers when its first launch is entered, named by the
  reference's staged functions.

  Before the first launch the two programs apply the same host operations to the same arguments: the edge
  endpoints sliced out of the index array, the degree normalisation per edge, the node features (the embedding
  joined with the projected structural features) and the first layer's weight matrix.  Each of these buffers
  therefore holds the reference's stage of the same name, applied to the kernel program's arguments.
-/
import proofs.«137361_j16638703305297_1_alg».proof.Proof.Gen.KernelIdeal.Frame
import proofs.«137361_j16638703305297_1_alg».proof.Proof.ReadP

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

variable (m : (ℓ : Loc nD τ sig) → Buf (Elt Ideal) ℓ) (ρ : Dev nD → PrngReg)

/-- The kernel program's argument arrays at launch. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)
abbrev A9 (c : Dev nD) := m ((c : Thread nD τ).loc main_arg9)
abbrev A10 (c : Dev nD) := m ((c : Thread nD τ).loc main_arg10)

/-- What every later stretch of host operations reads besides the activations: the two edge-endpoint vectors, the
    per-edge normalisation, and the parameter arrays, as a valuation holds them. -/
structure Carried (c : Dev nD) (W : Valuation τ sig (Elt Ideal)) : Prop where
  v1 : W (Proc.devRef .tc main_v1) = val_main_v1 (F := Ideal) (A0 m c)
  v3 : W (Proc.devRef .tc main_v3) = val_main_v3 (F := Ideal) (A0 m c)
  v26 : W (Proc.devRef .tc main_v26) = val_main_v26 (F := Ideal) (A0 m c)
  a5 : W (Proc.devRef .tc main_arg5) = A5 m c
  a6 : W (Proc.devRef .tc main_arg6) = A6 m c
  a7 : W (Proc.devRef .tc main_arg7) = A7 m c
  a8 : W (Proc.devRef .tc main_arg8) = A8 m c
  a9 : W (Proc.devRef .tc main_arg9) = A9 m c
  a10 : W (Proc.devRef .tc main_arg10) = A10 m c

/-- What the precondition gives: the bias, the batch-norm weight, mean and variance hold real numbers, and the variance
    is non-negative. -/
structure PreH (c : Dev nD) : Prop where
  h6 : ∀ i, ∃ v : ℝ, A6 m c i = (v : EReal)
  h7 : ∀ i, ∃ v : ℝ, A7 m c i = (v : EReal)
  h9 : ∀ i, ∃ v : ℝ, A9 m c i = (v : EReal)
  h10 : ∀ i, ∃ v : ℝ, A10 m c i = (v : EReal)
  hpos : ∀ i, (0 : EReal) ≤ A10 m c i

/-- The fold of the five host stretches before the first launch, spelt out. -/
theorem W5_eq (c : Dev nD) : W5 m ρ c = StableHlo.after hostOps0_4 (StableHlo.after hostOps0_3 (StableHlo.after hostOps0_2
    (StableHlo.after hostOps0_1 (StableHlo.after hostOps0 (W0 m ρ c))))) := rfl
theorem W5_eq2 (c : Dev nD) : W5 m ρ c = StableHlo.after hostOps0_4 (StableHlo.after hostOps0_3 (StableHlo.after hostOps0_2
    (W2 m ρ c))) := rfl
theorem W2_eq (c : Dev nD) : W2 m ρ c = StableHlo.after hostOps0_1 (StableHlo.after hostOps0 (W0 m ρ c)) := rfl
theorem W2_eq1 (c : Dev nD) : W2 m ρ c = StableHlo.after hostOps0_1 (W1 m ρ c) := rfl
theorem W1_eq (c : Dev nD) : W1 m ρ c = StableHlo.after hostOps0 (W0 m ρ c) := rfl

theorem W5_v32 (c : Dev nD) : W5 m ρ c (Proc.devRef .tc main_v32)
    = val_main_v32 (F := Ideal) (A1 m c) (A2 m c) (A3 m c) (A4 m c) := by
  rw [W5_eq]; after_results_simp <;> rfl

theorem W5_v34 (c : Dev nD) : W5 m ρ c (Proc.devRef .tc main_v34) = val_main_v34 (F := Ideal) (A5 m c) := by
  rw [W5_eq]; after_results_simp <;> rfl

/-! The inverse square root of the degree is selected where the degree is positive, by a called function: its stretch
    is read on its own, over any contents, and then joined with the reference's stage. -/

theorem where_stage (V : Valuation τ sig (Elt Ideal)) : StableHlo.after hostOps0_1 V (Proc.devRef .tc main_v11)
    = select (V (Proc.devRef .tc main_v9)) (V (Proc.devRef .tc main_v10))
        (broadcastInDim S100000 ![] bcast_S_S100000 (id (V (Proc.devRef .tc main_cst_2)))) := by
  after_results_simp <;> rfl

theorem where_ref (x : IVec S2x1600000 32) : select (val_main_v9 (F := Ideal) x) (val_main_v10 (F := Ideal) x)
      (broadcastInDim S100000 ![] bcast_S_S100000 (id (constant (F := Ideal) S_ .f32 0x00000000#32)))
    = val_main_v11 (F := Ideal) x := rfl

theorem W1_v9 (c : Dev nD) : W1 m ρ c (Proc.devRef .tc main_v9) = val_main_v9 (F := Ideal) (A0 m c) := by
  rw [W1_eq]; after_results_simp <;> rfl
theorem W1_v10 (c : Dev nD) : W1 m ρ c (Proc.devRef .tc main_v10) = val_main_v10 (F := Ideal) (A0 m c) := by
  rw [W1_eq]; after_results_simp <;> rfl
theorem W1_cst_2 (c : Dev nD) : W1 m ρ c (Proc.devRef .tc main_cst_2) = constant (F := Ideal) S_ .f32 0x00000000#32 := by
  rw [W1_eq]; after_results_simp <;> rfl

theorem W2_v11 (c : Dev nD) : W2 m ρ c (Proc.devRef .tc main_v11) = val_main_v11 (F := Ideal) (A0 m c) := by
  rw [W2_eq1, where_stage, W1_v9, W1_v10, W1_cst_2]; exact where_ref _
theorem W2_v1 (c : Dev nD) : W2 m ρ c (Proc.devRef .tc main_v1) = val_main_v1 (F := Ideal) (A0 m c) := by
  rw [W2_eq]; after_results_simp <;> rfl
theorem W2_v3 (c : Dev nD) : W2 m ρ c (Proc.devRef .tc main_v3) = val_main_v3 (F := Ideal) (A0 m c) := by
  rw [W2_eq]; after_results_simp <;> rfl

/-- The per-edge normalisation: the selected inverse square roots gathered at the two endpoints and multiplied. -/
theorem W5_v26 (c : Dev nD) : W5 m ρ c (Proc.devRef .tc main_v26) = val_main_v26 (F := Ideal) (A0 m c) := by
  have e11 := W2_v11 m ρ c
  have e1 := W2_v1 m ρ c
  have e3 := W2_v3 m ρ c
  rw [W5_eq2]
  generalize W2 m ρ c = V at e11 e1 e3 ⊢
  after_results_simp
  rw [e11, e1, e3]; rfl

set_option maxHeartbeats 1000000 in
theorem carried5 (c : Dev nD) : Carried m c (W5 m ρ c) where
  v1 := by rw [W5_eq]; after_results_simp <;> rfl
  v3 := by rw [W5_eq]; after_results_simp <;> rfl
  v26 := W5_v26 m ρ c
  a5 := by rw [W5_eq]; after_results_simp <;> rfl
  a6 := by rw [W5_eq]; after_results_simp <;> rfl
  a7 := by rw [W5_eq]; after_results_simp <;> rfl
  a8 := by rw [W5_eq]; after_results_simp <;> rfl
  a9 := by rw [W5_eq]; after_results_simp <;> rfl
  a10 := by rw [W5_eq]; after_results_simp <;> rfl

end Cert.KernelIdeal.Chain

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.Lin0.lean ====
/-
  The first linear layer's region: what its output array holds afterwards.

  The body multiplies a block of 10000 rows of the 100000 x 128 activations by the whole 128 x 128 weight: entry
  (p, q) of the stored block is the sum over k of the block's (p, k) times the weight's (k, q) (rounding the operands
  to a narrower float format is the identity on the extended reals, and the product is accumulated into zero).  The
  ten grid points write the ten row blocks of the output, so the output array is, index by index, that sum with the
  row taken in the whole activations array.
-/
import proofs.«137361_j16638703305297_1_alg».proof.Proof.Gen.KernelIdeal.Frame
import proofs.«137361_j16638703305297_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Lin0

open Idealize.ShloMosaic Idealize.ShloMosaic.TcCoe Idealize.ShloMosaic.ValueIdx Cert.KernelIdeal Cert.KernelIdeal.Gen

/-! ## The product's dimension numbers are the plain ones -/

theorem dot_l0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem dot_l1 (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q

theorem dot_r0 (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q

theorem dot_r1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! ## The body's stored value at an index -/

/-- Entry (p, q) of the block the body stores: row p of the activations block against column q of the weight. -/
theorem pay_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  rw [shapeCast_self, shapeCast_self]
  exact Cert.Lib.PlainDot.matmul_zero_apply dot_S10000x128_S128x128_S10000x128_1_0_0_1_n_n rfl rfl dot_l0 dot_l1 dot_r0 dot_r1
    none x0 x1 (ix2 p q)

/-! ## The windows' index maps over the grid -/

theorem hz : (![0, 0] : Fin 2 → Nat) = fun _ => 0 := funext fun a => by fin_cases a <;> rfl

/-- The printed index maps, decided over the ten grid points: the activations' block moves with the output's down the
    rows, the weight's block stays at the origin, and no block leaves the first block column. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some grid point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-! ## The product of the whole arrays -/

/-- Entry (r, q) of the product of the activations with the weight. -/
def prod (A0 : S100000x128.Idx → EReal) (A1 : S128x128.Idx → EReal) : S100000x128.Idx → EReal :=
  fun i => ∑ k : Fin 128, A0 (ix2 (i 0) k) * A1 (ix2 k (i 1))

theorem prod_apply (A0 : S100000x128.Idx → EReal) (A1 : S128x128.Idx → EReal) (r : Fin 100000) (q : Fin 128) :
    prod A0 A1 (ix2 r q) = ∑ k : Fin 128, A0 (ix2 r k) * A1 (ix2 k q) := rfl

/-- A stored block is a row block of the product, when the blocks the body loaded are a row block of the activations,
    starting at row `b * 10000`, and the whole weight. -/
theorem pay_eq_prod (A0 : S100000x128.Idx → EReal) (A1 : S128x128.Idx → EReal)
    (x0 : Vec Ideal S10000x128 .f32) (x1 : Vec Ideal S128x128 .f32) (b : Nat)
    (h0 : ∀ (p : Fin 10000) (k : Fin 128) (r : Fin 100000), r.val = b * 10000 + p.val → x0 (ix2 p k) = A0 (ix2 r k))
    (h1 : ∀ (k q : Fin 128), x1 (ix2 k q) = A1 (ix2 k q))
    (j : S10000x128.Idx) (i : S100000x128.Idx) (hi0 : (i 0).val = b * 10000 + (j 0).val) (hi1 : (i 1).val = (j 1).val) :
    k0_pay1 (F := Ideal) x0 x1 j = prod A0 A1 i := by
  obtain ⟨p, q, rfl⟩ : ∃ (p : Fin 10000) (q : Fin 128), j = ix2 p q := ⟨j 0, j 1, eq_ix2 j⟩
  obtain ⟨r, s, rfl⟩ : ∃ (r : Fin 100000) (s : Fin 128), i = ix2 r s := ⟨i 0, i 1, eq_ix2 i⟩
  have hr : r.val = b * 10000 + p.val := hi0
  obtain rfl : s = q := Fin.ext hi1
  rw [pay_apply, prod_apply]
  exact Finset.sum_congr rfl fun k _ => by rw [h0 p k r hr, h1 k s]

/-! ## What a grid point writes back -/

section
variable (V : (c : Dev nD) → (b : Ref sig .tc) → Buf (Elt Ideal) ((c : Thread nD τ).loc b))

/-- An element of the activations' block at point `t` sits in the array `index * 10000` rows further down. -/
theorem emb0 (t : Fin cfg0.N) (p : Fin 10000) (k : Fin 128) (r : Fin 100000)
    (hr : r.val = win0_2.index t (0 : Fin 2) * 10000 + p.val) :
    ((cfg0.win 0).blk t).view.emb (ix2 p k) = ix2 r k := by
  obtain ⟨e0, e1, e2, e3, e4, e5⟩ := idx_facts t
  funext a; apply Fin.ext
  match a with
  | ⟨0, _⟩ => show win0_0.index t (0 : Fin 2) * 10000 + 1 * p.val = r.val; omega
  | ⟨1, _⟩ => show win0_0.index t (1 : Fin 2) * 128 + 1 * k.val = k.val; omega

/-- The weight's block at any point is the whole weight. -/
theorem emb1 (t : Fin cfg0.N) (k q : Fin 128) :
    ((cfg0.win 1).blk t).view.emb (ix2 k q) = ix2 k q := by
  obtain ⟨e0, e1, e2, e3, e4, e5⟩ := idx_facts t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- Point `t` writes back block `t` of the product of the arrays as the region finds them. -/
theorem flushed_eq (c : Dev nD) (t : Fin cfg0.N) :
    (dat0 (F := Ideal) V c).flushed 2 t
      = ((cfg0.win 2).blk t).view.read (Elt Ideal) (prod (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  funext j
  show k0_pay1 (F := Ideal) (iblk0 V c 0 t) (iblk0 V c 1 t) j
    = prod (V c (Pipeline.arrRef spec0 0)) (V c (Pipeline.arrRef spec0 1)) (((cfg0.win 2).blk t).view.emb j)
  refine pay_eq_prod _ _ (iblk0 V c 0 t) (iblk0 V c 1 t) (win0_2.index t (0 : Fin 2)) ?_ ?_ j _ ?_ ?_
  · intro p k r hr
    show V c (Pipeline.arrRef spec0 0) (((cfg0.win 0).blk t).view.emb (ix2 p k)) = V c (Pipeline.arrRef spec0 0) (ix2 r k)
    rw [emb0 t p k r hr]
  · intro k q
    show V c (Pipeline.arrRef spec0 1) (((cfg0.win 1).blk t).view.emb (ix2 k q)) = V c (Pipeline.arrRef spec0 1) (ix2 k q)
    rw [emb1 t k q]
  · show win0_2.index t (0 : Fin 2) * 10000 + 1 * (j 0).val = win0_2.index t (0 : Fin 2) * 10000 + (j 0).val; omega
  · obtain ⟨e0, e1, e2, e3, e4, e5⟩ := idx_facts t
    show win0_2.index t (1 : Fin 2) * 128 + 1 * (j 1).val = (j 1).val; omega

/-! ## The blocks cover the array -/

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v35).slice (win0_2.rect t)).set ↔ _
  rw [View.set_slice_whole, Rect.mem_set_unit]
  exact Iff.rfl

/-- Row `r` is in the block of the point whose block index is `r / 10000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-! ## The output array after the region -/

/-- After the region the output array is the product of the two input arrays as the region found them. -/
theorem final_arr (c : Dev nD) :
    (dat0 (F := Ideal) V c).arrAt 2 cfg0.N = prod (V c (Pipeline.arrRef spec0 0)) (V c (Pipeline.arrRef spec0 1)) :=
  (dat0 V c).arrAt_eq_of_cover 2 _ (fun t _ => flushed_eq V c t) cover

/-- The same, index by index, with the two input arrays named. -/
theorem final (c : Dev nD) (r : Fin 100000) (q : Fin 128)
    (A0 : S100000x128.Idx → EReal) (A1 : S128x128.Idx → EReal)
    (h0 : V c (Pipeline.arrRef spec0 0) = A0) (h1 : V c (Pipeline.arrRef spec0 1) = A1) :
    (dat0 (F := Ideal) V c).arrAt 2 cfg0.N (ix2 r q) = ∑ k : Fin 128, A0 (ix2 r k) * A1 (ix2 k q) := by
  subst h0 h1
  rw [final_arr]; rfl

end

end Cert.KernelIdeal.Lin0

end
-- ==== Proof.Chain1.lean ====
/-
  Layer one up to the second launch's entry.

  The first launch multiplies the node features, in ten row blocks, by the layer's weight matrix; entry
  (r, c) of its output is the sum over k of feature (r, k) times weight (k, c), which is the reference's
  matrix product read at the same index.  The host operations that follow — gather the rows at the edges'
  sources, scale by the edge normalisation, scatter-add at the destinations — are the reference's, applied to
  equal operands, so the aggregate is the reference's; the folded scale gamma·rsqrt(var + eps) and the folded
  shift (bias − mean)·scale + beta are computed from the same slices of the parameter arrays.
-/
import proofs.«137361_j16638703305297_1_alg».proof.Proof.Chain0
import proofs.«137361_j16638703305297_1_alg».proof.Proof.Lin0
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

variable (m : (ℓ : Loc nD τ sig) → Buf (Elt Ideal) ℓ) (ρ : Dev nD → PrngReg)

/-- A layer's folded shift as a length-128 vector: (bias − mean)·scale + beta, entry by entry. -/
def shiftVec (b mean scale beta : FVec Ideal S128 .f32) : FVec Ideal S128 .f32 := addf (mulf (subf b mean) scale) beta

set_option maxHeartbeats 2000000 in
/-- A launch leaves every buffer that is not one of its windows' arrays as it found it. -/
theorem carried6 (c : Dev nD) : Carried m c (W6 m ρ c) :=
  have h := carried5 m ρ c
  { v1 := (W6_of_ne m ρ c main_v1 (by decide)).trans h.v1
    v3 := (W6_of_ne m ρ c main_v3 (by decide)).trans h.v3
    v26 := (W6_of_ne m ρ c main_v26 (by decide)).trans h.v26
    a5 := (W6_of_ne m ρ c main_arg5 (by decide)).trans h.a5
    a6 := (W6_of_ne m ρ c main_arg6 (by decide)).trans h.a6
    a7 := (W6_of_ne m ρ c main_arg7 (by decide)).trans h.a7
    a8 := (W6_of_ne m ρ c main_arg8 (by decide)).trans h.a8
    a9 := (W6_of_ne m ρ c main_arg9 (by decide)).trans h.a9
    a10 := (W6_of_ne m ρ c main_arg10 (by decide)).trans h.a10 }

/-- The reference's matrix product read at an index: the sum over k of activation (r, k) times weight (k, c). -/
theorem v35_at (c : Dev nD) (r : Fin 100000) (q : Fin 128) :
    val_main_v35 (F := Ideal) (A1 m c) (A2 m c) (A3 m c) (A4 m c) (A5 m c) (ix2 r q)
      = ∑ k : Fin 128, val_main_v32 (F := Ideal) (A1 m c) (A2 m c) (A3 m c) (A4 m c) (ix2 r k) * val_main_v34 (F := Ideal) (A5 m c) (ix2 k q) := by
  rw [val_main_v35_apply]
  refine Finset.sum_congr rfl fun k _ => ?_
  exact congrArg₂ (fun a b : EReal => a * b)
    (congrArg (val_main_v32 (F := Ideal) (A1 m c) (A2 m c) (A3 m c) (A4 m c)) (funext fun a => Fin.ext (by match a with | ⟨0, _⟩ => rfl | ⟨1, _⟩ => rfl)))
    (congrArg (val_main_v34 (F := Ideal) (A5 m c)) (funext fun a => Fin.ext (by match a with | ⟨0, _⟩ => rfl | ⟨1, _⟩ => rfl)))

/-- The first launch's output array is the reference's first matrix product. -/
theorem W6_v35 (c : Dev nD) : W6 m ρ c (Proc.devRef .tc main_v35) = val_main_v35 (F := Ideal) (A1 m c) (A2 m c) (A3 m c) (A4 m c) (A5 m c) := by
  funext i
  obtain ⟨r, q, rfl⟩ : ∃ (r : Fin 100000) (q : Fin 128), i = ix2 r q := ⟨i 0, i 1, eq_ix2 i⟩
  refine (congrFun (W6_arr m ρ c 2) (ix2 r q)).trans ?_
  exact (Cert.KernelIdeal.Lin0.final (V5 m ρ) c r q _ _ (W5_v32 m ρ c) (W5_v34 m ρ c)).trans (v35_at m c r q).symm

theorem W7_eq (c : Dev nD) : W7 m ρ c = StableHlo.after hostOps1 (W6 m ρ c) := rfl

set_option maxHeartbeats 4000000 in
/-- The stretch writes none of the carried buffers. -/
theorem carried7 (c : Dev nD) : Carried m c (W7 m ρ c) :=
  have h := carried6 m ρ c
  { v1 := by rw [W7_eq]; after_results_simp; exact h.v1
    v3 := by rw [W7_eq]; after_results_simp; exact h.v3
    v26 := by rw [W7_eq]; after_results_simp; exact h.v26
    a5 := by rw [W7_eq]; after_results_simp; exact h.a5
    a6 := by rw [W7_eq]; after_results_simp; exact h.a6
    a7 := by rw [W7_eq]; after_results_simp; exact h.a7
    a8 := by rw [W7_eq]; after_results_simp; exact h.a8
    a9 := by rw [W7_eq]; after_results_simp; exact h.a9
    a10 := by rw [W7_eq]; after_results_simp; exact h.a10 }

set_option maxHeartbeats 2000000 in
/-- The first aggregate: gather, scale and scatter-add of the first product. -/
theorem W7_v48 (c : Dev nD) : W7 m ρ c (Proc.devRef .tc main_v48) = val_main_v48 (F := Ideal) (A0 m c) (A1 m c) (A2 m c) (A3 m c) (A4 m c) (A5 m c) := by
  have h := carried6 m ρ c
  rw [W7_eq]; after_results_simp; rw [W6_v35, h.v1, h.v3, h.v26]; rfl

set_option maxHeartbeats 2000000 in
/-- The folded scale of layer one, as a one-row matrix. -/
theorem W7_v66 (c : Dev nD) : W7 m ρ c (Proc.devRef .tc main_v66)
    = shapeCast S1x128 (val_main_v66 (F := Ideal) (A7 m c) (A10 m c)) shapeCasts_S128_S1x128 := by
  have h := carried6 m ρ c
  rw [W7_eq]; after_results_simp; rw [h.a7, h.a10]; rfl

set_option maxHeartbeats 2000000 in
/-- The folded shift of layer one, as a one-row matrix. -/
theorem W7_v67 (c : Dev nD) : W7 m ρ c (Proc.devRef .tc main_v67)
    = shapeCast S1x128 (shiftVec (val_main_v50 (F := Ideal) (A6 m c)) (val_main_v55 (F := Ideal) (A9 m c))
        (val_main_v66 (F := Ideal) (A7 m c) (A10 m c)) (val_main_v71 (F := Ideal) (A8 m c))) shapeCasts_S128_S1x128 := by
  have h := carried6 m ρ c
  rw [W7_eq]; after_results_simp; rw [h.a6, h.a7, h.a8, h.a9, h.a10]; rfl

end Cert.KernelIdeal.Chain

end
-- ==== Proof.Post1.lean ====
/- Region 1 (scale, shift, clamp at zero), read index by index. Each grid point t handles rows 10000·t … 10000·t + 9999 of a
   100000 × 128 array: it multiplies the block by the scale row, adds the shift row and takes the maximum with zero. The ten row
   blocks tile the array, so after the region the output array holds, at (r, q), max (agg (r, q) · scale (0, q) + shift (0, q)) 0
   of the input arrays as the region finds them. -/
import proofs.«137361_j16638703305297_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Post1

open Idealize.ShloMosaic Idealize.ShloMosaic.TcCoe Idealize.ShloMosaic.ValueIdx Cert.KernelIdeal Cert.KernelIdeal.Gen

/-- The zero offsets of a whole-buffer access, however they are spelt. -/
theorem hz : (![0, 0] : Fin 2 → Nat) = fun _ => 0 := funext fun a => by fin_cases a <;> rfl

/-- The array the region leaves, index by index: scale, shift, clamp below at zero; the scale and the shift are rows read
    at the entry's column. -/
def G (A0 : S100000x128.Idx → EReal) (A1 A2 : S1x128.Idx → EReal) : S100000x128.Idx → EReal :=
  fun i => max (A0 i * A1 (ix2 (0 : Fin 1) (i 1 : Fin 128)) + A2 (ix2 (0 : Fin 1) (i 1 : Fin 128))) (Ideal.ofBits .f32 0x00000000#32)

/-- The body's arithmetic at one entry of a block. -/
theorem pay_apply (x0 : Vec Ideal S10000x128 .f32) (x1 x2 : Vec Ideal S1x128 .f32) (p : Fin 10000) (q : Fin 128) :
    k1_pay1 x0 x1 x2 (ix2 p q)
      = max (x0 (ix2 p q) * x1 (ix2 0 q) + x2 (ix2 0 q)) (Ideal.ofBits .f32 0x00000000#32) := by
  unfold k1_pay1
  simp only [shapeCast_self]
  rw [maximumf_apply, addf_apply, mulf_apply, broadcast_apply, broadcastTo_1b_ab_apply, broadcastTo_1b_ab_apply]
  rfl

/-- The same at an index not yet split into coordinates. -/
theorem pay_apply' (x0 : Vec Ideal S10000x128 .f32) (x1 x2 : Vec Ideal S1x128 .f32) (j : S10000x128.Idx) :
    k1_pay1 x0 x1 x2 j
      = max (x0 j * x1 (ix2 (0 : Fin 1) (j 1 : Fin 128)) + x2 (ix2 (0 : Fin 1) (j 1 : Fin 128))) (Ideal.ofBits .f32 0x00000000#32) := by
  obtain ⟨p, q, rfl⟩ : ∃ (p : Fin 10000) (q : Fin 128), j = ix2 p q := ⟨j 0, j 1, eq_ix2 j⟩
  exact pay_apply x0 x1 x2 p q

/-- The printed index maps, decided over the grid: the row-block windows move together, every other block index is zero. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every row block is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

section
variable (V : (c : Dev nD) → (b : Ref sig .tc) → Buf (Elt Ideal) ((c : Thread nD τ).loc b))

/-- An entry of window 0's block at point t is the array's entry at block index × block size + the coordinate inside. -/
theorem blk0_apply (c : Dev nD) (t : Fin cfg1.N) (y : S10000x128.Idx) (i : S100000x128.Idx)
    (h0 : win1_0.index t (0 : Fin 2) * 10000 + 1 * (y 0).val = (i 0).val)
    (h1 : win1_0.index t (1 : Fin 2) * 128 + 1 * (y 1).val = (i 1).val) :
    (iblk1 V c 0 t : Vec Ideal S10000x128 .f32) y = (V c (Pipeline.arrRef spec1 0) : S100000x128.Idx → EReal) i := by
  unfold iblk1
  rw [View.read_apply]
  show V c (Pipeline.arrRef spec1 0) _ = V c (Pipeline.arrRef spec1 0) _
  refine congrArg _ (funext fun a => Fin.ext ?_)
  match a with
  | ⟨0, _⟩ => exact h0
  | ⟨1, _⟩ => exact h1

/-- An entry of the scale row's block is the row's entry at the same column (its block index is zero on both axes). -/
theorem blk1_apply (c : Dev nD) (t : Fin cfg1.N) (y : S1x128.Idx) (i : S1x128.Idx)
    (h0 : win1_1.index t (0 : Fin 2) * 1 + 1 * (y 0).val = (i 0).val)
    (h1 : win1_1.index t (1 : Fin 2) * 128 + 1 * (y 1).val = (i 1).val) :
    (iblk1 V c 1 t : Vec Ideal S1x128 .f32) y = (V c (Pipeline.arrRef spec1 1) : S1x128.Idx → EReal) i := by
  unfold iblk1
  rw [View.read_apply]
  show V c (Pipeline.arrRef spec1 1) _ = V c (Pipeline.arrRef spec1 1) _
  refine congrArg _ (funext fun a => Fin.ext ?_)
  match a with
  | ⟨0, _⟩ => exact h0
  | ⟨1, _⟩ => exact h1

/-- The same for the shift row. -/
theorem blk2_apply (c : Dev nD) (t : Fin cfg1.N) (y : S1x128.Idx) (i : S1x128.Idx)
    (h0 : win1_2.index t (0 : Fin 2) * 1 + 1 * (y 0).val = (i 0).val)
    (h1 : win1_2.index t (1 : Fin 2) * 128 + 1 * (y 1).val = (i 1).val) :
    (iblk1 V c 2 t : Vec Ideal S1x128 .f32) y = (V c (Pipeline.arrRef spec1 2) : S1x128.Idx → EReal) i := by
  unfold iblk1
  rw [View.read_apply]
  show V c (Pipeline.arrRef spec1 2) _ = V c (Pipeline.arrRef spec1 2) _
  refine congrArg _ (funext fun a => Fin.ext ?_)
  match a with
  | ⟨0, _⟩ => exact h0
  | ⟨1, _⟩ => exact h1

/-- What point t writes back is block t of G of the arrays as the region finds them. -/
theorem flushed_eq (c : Dev nD) (t : Fin cfg1.N) :
    (dat1 V c).flushed 3 t = ((cfg1.win 3).blk t).view.read (Elt Ideal)
      (G (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz]
  obtain ⟨e0, e1, e2, e3, e4, e5, e6, e7⟩ := idx_facts t
  funext j
  have hj0 : (j 0).val < 10000 := (j 0).isLt
  have hj1 : (j 1).val < 128 := (j 1).isLt
  refine (pay_apply' (iblk1 V c 0 t) (iblk1 V c 1 t) (iblk1 V c 2 t) ((cfg1.win 3).xinj (grid1.coords t) j)).trans ?_
  rw [blk0_apply V c t ((cfg1.win 3).xinj (grid1.coords t) j) (((cfg1.win 3).blk t).view.emb j)
        (by show win1_0.index t (0 : Fin 2) * 10000 + 1 * (j 0).val = win1_3.index t (0 : Fin 2) * 10000 + 1 * (j 0).val; omega)
        (by show win1_0.index t (1 : Fin 2) * 128 + 1 * (j 1).val = win1_3.index t (1 : Fin 2) * 128 + 1 * (j 1).val; omega),
      blk1_apply V c t (ix2 (0 : Fin 1) ((cfg1.win 3).xinj (grid1.coords t) j 1 : Fin 128)) (ix2 (0 : Fin 1) ((((cfg1.win 3).blk t).view.emb j) 1 : Fin 128))
        (by show win1_1.index t (0 : Fin 2) * 1 + 1 * 0 = 0; omega)
        (by show win1_1.index t (1 : Fin 2) * 128 + 1 * (j 1).val = win1_3.index t (1 : Fin 2) * 128 + 1 * (j 1).val; omega),
      blk2_apply V c t (ix2 (0 : Fin 1) ((cfg1.win 3).xinj (grid1.coords t) j 1 : Fin 128)) (ix2 (0 : Fin 1) ((((cfg1.win 3).blk t).view.emb j) 1 : Fin 128))
        (by show win1_2.index t (0 : Fin 2) * 1 + 1 * 0 = 0; omega)
        (by show win1_2.index t (1 : Fin 2) * 128 + 1 * (j 1).val = win1_3.index t (1 : Fin 2) * 128 + 1 * (j 1).val; omega)]
  rfl

/-- An index of the array is in point t's block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v68).slice (win1_3.rect t)).set ↔ _
  rw [View.set_slice_whole, Rect.mem_set_unit]
  exact Iff.rfl

/-- Row r lies in the block of the point whose block index is r / 10000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The output array after the region is G of the input arrays at the region's entry. -/
theorem final_arr (c : Dev nD) :
    (dat1 V c).arrAt 3 cfg1.N = G (V c (Pipeline.arrRef spec1 0)) (V c (Pipeline.arrRef spec1 1)) (V c (Pipeline.arrRef spec1 2)) :=
  (dat1 V c).arrAt_eq_of_cover 3 _ (fun t _ => flushed_eq V c t) cover

end

/-- G at an entry. -/
theorem G_apply (A0 : S100000x128.Idx → EReal) (A1 A2 : S1x128.Idx → EReal) (r : Fin 100000) (q : Fin 128) :
    G A0 A1 A2 (ix2 r q) = max (A0 (ix2 r q) * A1 (ix2 0 q) + A2 (ix2 0 q)) (Ideal.ofBits .f32 0x00000000#32) := rfl

/-- The output array after the region, entry by entry, the input arrays at the region's entry named A0, A1, A2. -/
theorem final (V : (c : Dev nD) → (b : Ref sig .tc) → Buf (Elt Ideal) ((c : Thread nD τ).loc b)) (c : Dev nD) (r : Fin 100000) (q : Fin 128)
    (A0 : S100000x128.Idx → EReal) (A1 A2 : S1x128.Idx → EReal)
    (h0 : V c (Pipeline.arrRef spec1 0) = A0) (h1 : V c (Pipeline.arrRef spec1 1) = A1) (h2 : V c (Pipeline.arrRef spec1 2) = A2) :
    (dat1 (F := Ideal) V c).arrAt 3 cfg1.N (ix2 r q)
      = max (A0 (ix2 r q) * A1 (ix2 0 q) + A2 (ix2 0 q)) (Ideal.ofBits .f32 0x00000000#32) := by
  subst h0 h1 h2
  exact (congrFun (final_arr V c) (ix2 r q)).trans rfl

end Cert.KernelIdeal.Post1
end
-- ==== Proof.Alg.lean ====
/-
  Two laws of the extended reals used to fold a batch-norm affine map into one
  scale and one shift.

  On EReal addition is associative and commutative, but multiplication does not
  distribute over addition in general (⊤ + ⊥ = ⊥ breaks it).  It does distribute
  when the second summand and the factor are both REAL: for any extended real
  `a` and reals `c`, `s`,  (a + c) * s = a * s + c * s.  For a = ±∞ both sides
  are the same infinity (its sign decided by the sign of s), or 0 + c * 0 when
  s = 0; for real a it is distributivity in ℝ.
-/
import Mathlib.Data.EReal.Operations
import Idealize.ShloMosaic.PureOps.Ideal

namespace Cert.Alg

/-- Right distributivity over a sum whose second summand is real, for a real factor. -/
theorem add_coe_mul_coe (a : EReal) (c s : ℝ) :
    (a + (c : EReal)) * (s : EReal) = a * (s : EReal) + (c : EReal) * (s : EReal) := by
  induction a using EReal.rec with
  | bot =>
    rw [EReal.bot_add]
    rcases lt_trichotomy s 0 with hs | hs | hs
    · rw [EReal.bot_mul_coe_of_neg hs, ← EReal.coe_mul, EReal.top_add_coe]
    · subst hs; simp
    · rw [EReal.bot_mul_coe_of_pos hs, EReal.bot_add]
  | coe a =>
    rw [← EReal.coe_add, ← EReal.coe_mul, ← EReal.coe_mul, ← EReal.coe_mul, ← EReal.coe_add,
      add_mul]
  | top =>
    rw [EReal.top_add_coe]
    rcases lt_trichotomy s 0 with hs | hs | hs
    · rw [EReal.top_mul_coe_of_neg hs, EReal.bot_add]
    · subst hs; simp
    · rw [EReal.top_mul_coe_of_pos hs, ← EReal.coe_mul, EReal.top_add_coe]

/-- The batch-norm affine map `((a + b) - μ) * s + β` as scale `s` applied to `a`
    plus the shift `(b - μ) * s + β`.  `a` and `β` may be infinite; `b`, `μ`, `s` are real. -/
theorem fold_affine (a β : EReal) (b μ s : ℝ) :
    ((a + (b : EReal)) - (μ : EReal)) * (s : EReal) + β
      = a * (s : EReal) + (((b : EReal) - (μ : EReal)) * (s : EReal) + β) := by
  have h : (a + (b : EReal)) - (μ : EReal) = a + ((b - μ : ℝ) : EReal) := by
    rw [sub_eq_add_neg, add_assoc, ← EReal.coe_neg, ← EReal.coe_add, ← sub_eq_add_neg]
  rw [h, add_coe_mul_coe, ← EReal.coe_sub, add_assoc]

/-- A real `g` times the reciprocal square root of a positive real `v + e` is a real. -/
theorem rsqrt_real (g v : ℝ) (hv : 0 ≤ v) (e : ℝ) (he : 0 < e) :
    ∃ s : ℝ, (g : EReal) * Idealize.ShloMosaic.Ideal.rsqrt ((v : EReal) + (e : EReal))
      = (s : EReal) := by
  have hpos : 0 < v + e := by linarith
  refine ⟨g * (Real.sqrt (v + e))⁻¹, ?_⟩
  rw [← EReal.coe_add, Idealize.ShloMosaic.Ideal.rsqrt_coe, if_neg (not_lt.mpr hpos.le),
    if_neg hpos.ne', ← EReal.coe_mul]

end Cert.Alg
-- ==== Proof.RefLayer.lean ====
/-
  The reference's three graph-convolution layers, each read at one entry (row `r`, column `q`).

  A layer is  relu(((agg + b) - μ) · s + β)  (+ ½ · previous layer, for layers 1 and 2), where `agg` is the
  aggregated (scatter-added) product — left opaque here —, `b`, `μ`, `β` are the layer's rows of the bias, running
  mean and shift arrays, and  s = γ · rsqrt(var + ε)  the layer's scale.  Each of b, μ, s is a REAL at every
  column (the arrays are finite, var ≥ 0, ε > 0), so the affine map folds:
      ((agg + b) - μ) · s + β  =  agg · s + ((b - μ) · s + β)
  even when `agg` or `β` is infinite (Alg.fold_affine).  The right-hand sides below are stated in that folded
  form, with the length-128 vectors kept as the reference's own stages read at column `q`.
-/
import proofs.«137361_j16638703305297_1_alg».proof.Proof.ReadP
import proofs.«137361_j16638703305297_1_alg».proof.Proof.Alg

noncomputable section

namespace Cert.ReferenceIdeal.RefLayer

open Cert.ReferenceIdeal Cert.ReferenceIdeal.ReadP Idealize.ShloMosaic Idealize.ShloMosaic.ValueIdx

/-- The batch-norm ε (the f32 nearest 1e-5) is a positive real. -/
theorem eps_pos : ∃ e : ℝ, 0 < e ∧ Ideal.ofBits .f32 0x3727C5AC#32 = (e : EReal) := by
  simp [Ideal.ofBits, Ideal.ieee, -EReal.coe_mul]

/-! ## Layer 0 -/

/-- Layer 0's bias row, read at column `q`, is a real: it is an entry of the bias array. -/
theorem bias0_real (x6 : (⟨S3x128, .f32⟩ : BufTy).Contents (Elt Ideal)) (h6 : ∀ i, ∃ v : ℝ, x6 i = (v : EReal)) (q : Fin 128) :
    ∃ b : ℝ, val_main_v50 (F := Ideal) x6 (ix1 q) = (b : EReal) := by
  rw [val_main_v50_apply, val_main_v49_apply]; exact h6 _

/-- Layer 0's running mean, read at column `q`, is a real. -/
theorem mean0_real (x9 : (⟨S3x128, .f32⟩ : BufTy).Contents (Elt Ideal)) (h9 : ∀ i, ∃ v : ℝ, x9 i = (v : EReal)) (q : Fin 128) :
    ∃ μ : ℝ, val_main_v55 (F := Ideal) x9 (ix1 q) = (μ : EReal) := by
  rw [val_main_v55_apply, val_main_v54_apply]; exact h9 _

/-- Layer 0's scale `γ · rsqrt(var + ε)`, read at column `q`, is a real: `γ` and `var` are real, `var ≥ 0`
    and `ε > 0`, so the reciprocal square root is taken of a positive real. -/
theorem scale0_real (x7 x10 : (⟨S3x128, .f32⟩ : BufTy).Contents (Elt Ideal)) (h7 : ∀ i, ∃ v : ℝ, x7 i = (v : EReal))
    (h10 : ∀ i, ∃ v : ℝ, x10 i = (v : EReal)) (hpos : ∀ i, (0 : EReal) ≤ x10 i) (q : Fin 128) :
    ∃ s : ℝ, val_main_v66 (F := Ideal) x7 x10 (ix1 q) = (s : EReal) := by
  rw [val_main_v66_apply, val_main_v65_apply, val_main_v64_apply, val_main_v63_apply, val_main_cst_9_apply, val_main_v60_apply, val_main_v59_apply,
    val_main_v62_apply, val_main_v61_apply]
  simp only [Ideal.mulf_def, Ideal.hostUnary_rsqrt_def, Ideal.addf_def, Ideal.ofBits_def]
  obtain ⟨g, hg⟩ := h7 (idx_main_v59 (idx_main_v60 (ix1 q)))
  obtain ⟨v, hv⟩ := h10 (idx_main_v61 (idx_main_v62 (ix1 q)))
  obtain ⟨e, he, hE⟩ := eps_pos
  have hv0 : 0 ≤ v := by
    have := hpos (idx_main_v61 (idx_main_v62 (ix1 q)))
    rw [hv] at this
    exact_mod_cast this
  rw [hg, hv, hE]
  exact Cert.Alg.rsqrt_real g v hv0 e he

/-- Layer 0 of the reference at row `r`, column `q`: ReLU of the aggregate scaled, plus the folded shift. -/
theorem layer0 (x0 : (⟨S2x1600000, .i32⟩ : BufTy).Contents (Elt Ideal)) (x1 : (⟨S100000x6, .f32⟩ : BufTy).Contents (Elt Ideal))
    (x2 : (⟨S100000x122, .f32⟩ : BufTy).Contents (Elt Ideal)) (x3 : (⟨S6x6, .f32⟩ : BufTy).Contents (Elt Ideal))
    (x4 : (⟨S6, .f32⟩ : BufTy).Contents (Elt Ideal)) (x5 : (⟨S3x128x128, .f32⟩ : BufTy).Contents (Elt Ideal))
    (x6 x7 x8 x9 x10 : (⟨S3x128, .f32⟩ : BufTy).Contents (Elt Ideal))
    (h6 : ∀ i, ∃ v : ℝ, x6 i = (v : EReal)) (h7 : ∀ i, ∃ v : ℝ, x7 i = (v : EReal))
    (h9 : ∀ i, ∃ v : ℝ, x9 i = (v : EReal)) (h10 : ∀ i, ∃ v : ℝ, x10 i = (v : EReal))
    (hpos : ∀ i, (0 : EReal) ≤ x10 i)
    (r : Fin 100000) (q : Fin 128) :
    val_main_v75 (F := Ideal) x0 x1 x2 x3 x4 x5 x6 x7 x8 x9 x10 (ix2 r q)
      = max (val_main_v48 (F := Ideal) x0 x1 x2 x3 x4 x5 (ix2 r q) * val_main_v66 (F := Ideal) x7 x10 (ix1 q)
              + ((val_main_v50 (F := Ideal) x6 (ix1 q) - val_main_v55 (F := Ideal) x9 (ix1 q))
                    * val_main_v66 (F := Ideal) x7 x10 (ix1 q)
                  + val_main_v71 (F := Ideal) x8 (ix1 q)))
            (Ideal.ofBits .f32 0x00000000#32) := by
  have eb : idx_main_v51 (idx_main_v52 (ix2 r q)) = ix1 q := by
    funext a; match a with | ⟨0, _⟩ => rfl
  have em : idx_main_v56 (idx_main_v57 (ix2 r q)) = ix1 q := by
    funext a; match a with | ⟨0, _⟩ => rfl
  have es : idx_main_v67 (idx_main_v68 (ix2 r q)) = ix1 q := by
    funext a; match a with | ⟨0, _⟩ => rfl
  have et : idx_main_v72 (idx_main_v73 (ix2 r q)) = ix1 q := by
    funext a; match a with | ⟨0, _⟩ => rfl
  rw [val_main_v75_apply, val_main_call2_v0_apply, val_main_call2_cst_apply, val_main_v74_apply,
    val_main_v69_apply, val_main_v58_apply, val_main_v53_apply, val_main_v52_apply, val_main_v51_apply,
    val_main_v57_apply, val_main_v56_apply, val_main_v68_apply, val_main_v67_apply, val_main_v73_apply,
    val_main_v72_apply]
  rw [eb, em, es, et]
  simp only [Ideal.addf_def, Ideal.subf_def, Ideal.mulf_def, Ideal.maximumf_def, Ideal.ofBits_def]
  obtain ⟨b, hb⟩ := bias0_real x6 h6 q
  obtain ⟨μ, hμ⟩ := mean0_real x9 h9 q
  obtain ⟨s, hs⟩ := scale0_real x7 x10 h7 h10 hpos q
  rw [hb, hμ, hs, Cert.Alg.fold_affine]

/-! ## Layer 1 -/

/-- Layer 1's bias row, read at column `q`, is a real: it is an entry of the bias array. -/
theorem bias1_real (x6 : (⟨S3x128, .f32⟩ : BufTy).Contents (Elt Ideal)) (h6 : ∀ i, ∃ v : ℝ, x6 i = (v : EReal)) (q : Fin 128) :
    ∃ b : ℝ, val_main_v93 (F := Ideal) x6 (ix1 q) = (b : EReal) := by
  rw [val_main_v93_apply, val_main_v92_apply]; exact h6 _

/-- Layer 1's running mean, read at column `q`, is a real. -/
theorem mean1_real (x9 : (⟨S3x128, .f32⟩ : BufTy).Contents (Elt Ideal)) (h9 : ∀ i, ∃ v : ℝ, x9 i = (v : EReal)) (q : Fin 128) :
    ∃ μ : ℝ, val_main_v98 (F := Ideal) x9 (ix1 q) = (μ : EReal) := by
  rw [val_main_v98_apply, val_main_v97_apply]; exact h9 _

/-- Layer 1's scale `γ · rsqrt(var + ε)`, read at column `q`, is a real: `γ` and `var` are real, `var ≥ 0`
    and `ε > 0`, so the reciprocal square root is taken of a positive real. -/
theorem scale1_real (x7 x10 : (⟨S3x128, .f32⟩ : BufTy).Contents (Elt Ideal)) (h7 : ∀ i, ∃ v : ℝ, x7 i = (v : EReal))
    (h10 : ∀ i, ∃ v : ℝ, x10 i = (v : EReal)) (hpos : ∀ i, (0 : EReal) ≤ x10 i) (q : Fin 128) :
    ∃ s : ℝ, val_main_v109 (F := Ideal) x7 x10 (ix1 q) = (s : EReal) := by
  rw [val_main_v109_apply, val_main_v108_apply, val_main_v107_apply, val_main_v106_apply, val_main_cst_13_apply, val_main_v103_apply, val_main_v102_apply,
    val_main_v105_apply, val_main_v104_apply]
  simp only [Ideal.mulf_def, Ideal.hostUnary_rsqrt_def, Ideal.addf_def, Ideal.ofBits_def]
  obtain ⟨g, hg⟩ := h7 (idx_main_v102 (idx_main_v103 (ix1 q)))
  obtain ⟨v, hv⟩ := h10 (idx_main_v104 (idx_main_v105 (ix1 q)))
  obtain ⟨e, he, hE⟩ := eps_pos
  have hv0 : 0 ≤ v := by
    have := hpos (idx_main_v104 (idx_main_v105 (ix1 q)))
    rw [hv] at this
    exact_mod_cast this
  rw [hg, hv, hE]
  exact Cert.Alg.rsqrt_real g v hv0 e he

/-- Layer 1 of the reference at row `r`, column `q`: ReLU of the aggregate scaled plus the folded shift, plus half
    of the previous layer's output there (the residual). -/
theorem layer1 (x0 : (⟨S2x1600000, .i32⟩ : BufTy).Contents (Elt Ideal)) (x1 : (⟨S100000x6, .f32⟩ : BufTy).Contents (Elt Ideal))
    (x2 : (⟨S100000x122, .f32⟩ : BufTy).Contents (Elt Ideal)) (x3 : (⟨S6x6, .f32⟩ : BufTy).Contents (Elt Ideal))
    (x4 : (⟨S6, .f32⟩ : BufTy).Contents (Elt Ideal)) (x5 : (⟨S3x128x128, .f32⟩ : BufTy).Contents (Elt Ideal))
    (x6 x7 x8 x9 x10 : (⟨S3x128, .f32⟩ : BufTy).Contents (Elt Ideal))
    (h6 : ∀ i, ∃ v : ℝ, x6 i = (v : EReal)) (h7 : ∀ i, ∃ v : ℝ, x7 i = (v : EReal))
    (h9 : ∀ i, ∃ v : ℝ, x9 i = (v : EReal)) (h10 : ∀ i, ∃ v : ℝ, x10 i = (v : EReal))
    (hpos : ∀ i, (0 : EReal) ≤ x10 i)
    (r : Fin 100000) (q : Fin 128) :
    val_main_v121 (F := Ideal) x0 x1 x2 x3 x4 x5 x6 x7 x8 x9 x10 (ix2 r q)
      = max (val_main_v91 (F := Ideal) x0 x1 x2 x3 x4 x5 x6 x7 x8 x9 x10 (ix2 r q) * val_main_v109 (F := Ideal) x7 x10 (ix1 q)
              + ((val_main_v93 (F := Ideal) x6 (ix1 q) - val_main_v98 (F := Ideal) x9 (ix1 q))
                    * val_main_v109 (F := Ideal) x7 x10 (ix1 q)
                  + val_main_v114 (F := Ideal) x8 (ix1 q)))
            (Ideal.ofBits .f32 0x00000000#32)
        + Ideal.ofBits .f32 0x3F000000#32 * val_main_v75 (F := Ideal) x0 x1 x2 x3 x4 x5 x6 x7 x8 x9 x10 (ix2 r q) := by
  have eb : idx_main_v94 (idx_main_v95 (ix2 r q)) = ix1 q := by
    funext a; match a with | ⟨0, _⟩ => rfl
  have em : idx_main_v99 (idx_main_v100 (ix2 r q)) = ix1 q := by
    funext a; match a with | ⟨0, _⟩ => rfl
  have es : idx_main_v110 (idx_main_v111 (ix2 r q)) = ix1 q := by
    funext a; match a with | ⟨0, _⟩ => rfl
  have et : idx_main_v115 (idx_main_v116 (ix2 r q)) = ix1 q := by
    funext a; match a with | ⟨0, _⟩ => rfl
  rw [val_main_v121_apply, val_main_v120_apply, val_main_v119_apply, val_main_cst_14_apply,
    val_main_v118_apply, val_main_call3_v0_apply, val_main_call3_cst_apply, val_main_v117_apply,
    val_main_v112_apply, val_main_v101_apply, val_main_v96_apply, val_main_v95_apply, val_main_v94_apply,
    val_main_v100_apply, val_main_v99_apply, val_main_v111_apply, val_main_v110_apply, val_main_v116_apply,
    val_main_v115_apply]
  rw [eb, em, es, et]
  simp only [Ideal.addf_def, Ideal.subf_def, Ideal.mulf_def, Ideal.maximumf_def, Ideal.ofBits_def]
  obtain ⟨b, hb⟩ := bias1_real x6 h6 q
  obtain ⟨μ, hμ⟩ := mean1_real x9 h9 q
  obtain ⟨s, hs⟩ := scale1_real x7 x10 h7 h10 hpos q
  rw [hb, hμ, hs, Cert.Alg.fold_affine]

/-! ## Layer 2 -/

/-- Layer 2's bias row, read at column `q`, is a real: it is an entry of the bias array. -/
theorem bias2_real (x6 : (⟨S3x128, .f32⟩ : BufTy).Contents (Elt Ideal)) (h6 : ∀ i, ∃ v : ℝ, x6 i = (v : EReal)) (q : Fin 128) :
    ∃ b : ℝ, val_main_v139 (F := Ideal) x6 (ix1 q) = (b : EReal) := by
  rw [val_main_v139_apply, val_main_v138_apply]; exact h6 _

/-- Layer 2's running mean, read at column `q`, is a real. -/
theorem mean2_real (x9 : (⟨S3x128, .f32⟩ : BufTy).Contents (Elt Ideal)) (h9 : ∀ i, ∃ v : ℝ, x9 i = (v : EReal)) (q : Fin 128) :
    ∃ μ : ℝ, val_main_v144 (F := Ideal) x9 (ix1 q) = (μ : EReal) := by
  rw [val_main_v144_apply, val_main_v143_apply]; exact h9 _

/-- Layer 2's scale `γ · rsqrt(var + ε)`, read at column `q`, is a real: `γ` and `var` are real, `var ≥ 0`
    and `ε > 0`, so the reciprocal square root is taken of a positive real. -/
theorem scale2_real (x7 x10 : (⟨S3x128, .f32⟩ : BufTy).Contents (Elt Ideal)) (h7 : ∀ i, ∃ v : ℝ, x7 i = (v : EReal))
    (h10 : ∀ i, ∃ v : ℝ, x10 i = (v : EReal)) (hpos : ∀ i, (0 : EReal) ≤ x10 i) (q : Fin 128) :
    ∃ s : ℝ, val_main_v155 (F := Ideal) x7 x10 (ix1 q) = (s : EReal) := by
  rw [val_main_v155_apply, val_main_v154_apply, val_main_v153_apply, val_main_v152_apply, val_main_cst_18_apply, val_main_v149_apply, val_main_v148_apply,
    val_main_v151_apply, val_main_v150_apply]
  simp only [Ideal.mulf_def, Ideal.hostUnary_rsqrt_def, Ideal.addf_def, Ideal.ofBits_def]
  obtain ⟨g, hg⟩ := h7 (idx_main_v148 (idx_main_v149 (ix1 q)))
  obtain ⟨v, hv⟩ := h10 (idx_main_v150 (idx_main_v151 (ix1 q)))
  obtain ⟨e, he, hE⟩ := eps_pos
  have hv0 : 0 ≤ v := by
    have := hpos (idx_main_v150 (idx_main_v151 (ix1 q)))
    rw [hv] at this
    exact_mod_cast this
  rw [hg, hv, hE]
  exact Cert.Alg.rsqrt_real g v hv0 e he

/-- Layer 2 of the reference at row `r`, column `q`: ReLU of the aggregate scaled plus the folded shift, plus half
    of the previous layer's output there (the residual). -/
theorem layer2 (x0 : (⟨S2x1600000, .i32⟩ : BufTy).Contents (Elt Ideal)) (x1 : (⟨S100000x6, .f32⟩ : BufTy).Contents (Elt Ideal))
    (x2 : (⟨S100000x122, .f32⟩ : BufTy).Contents (Elt Ideal)) (x3 : (⟨S6x6, .f32⟩ : BufTy).Contents (Elt Ideal))
    (x4 : (⟨S6, .f32⟩ : BufTy).Contents (Elt Ideal)) (x5 : (⟨S3x128x128, .f32⟩ : BufTy).Contents (Elt Ideal))
    (x6 x7 x8 x9 x10 : (⟨S3x128, .f32⟩ : BufTy).Contents (Elt Ideal))
    (h6 : ∀ i, ∃ v : ℝ, x6 i = (v : EReal)) (h7 : ∀ i, ∃ v : ℝ, x7 i = (v : EReal))
    (h9 : ∀ i, ∃ v : ℝ, x9 i = (v : EReal)) (h10 : ∀ i, ∃ v : ℝ, x10 i = (v : EReal))
    (hpos : ∀ i, (0 : EReal) ≤ x10 i)
    (r : Fin 100000) (q : Fin 128) :
    val_main_v167 (F := Ideal) x0 x1 x2 x3 x4 x5 x6 x7 x8 x9 x10 (ix2 r q)
      = max (val_main_v137 (F := Ideal) x0 x1 x2 x3 x4 x5 x6 x7 x8 x9 x10 (ix2 r q) * val_main_v155 (F := Ideal) x7 x10 (ix1 q)
              + ((val_main_v139 (F := Ideal) x6 (ix1 q) - val_main_v144 (F := Ideal) x9 (ix1 q))
                    * val_main_v155 (F := Ideal) x7 x10 (ix1 q)
                  + val_main_v160 (F := Ideal) x8 (ix1 q)))
            (Ideal.ofBits .f32 0x00000000#32)
        + Ideal.ofBits .f32 0x3F000000#32 * val_main_v121 (F := Ideal) x0 x1 x2 x3 x4 x5 x6 x7 x8 x9 x10 (ix2 r q) := by
  have eb : idx_main_v140 (idx_main_v141 (ix2 r q)) = ix1 q := by
    funext a; match a with | ⟨0, _⟩ => rfl
  have em : idx_main_v145 (idx_main_v146 (ix2 r q)) = ix1 q := by
    funext a; match a with | ⟨0, _⟩ => rfl
  have es : idx_main_v156 (idx_main_v157 (ix2 r q)) = ix1 q := by
    funext a; match a with | ⟨0, _⟩ => rfl
  have et : idx_main_v161 (idx_main_v162 (ix2 r q)) = ix1 q := by
    funext a; match a with | ⟨0, _⟩ => rfl
  rw [val_main_v167_apply, val_main_v166_apply, val_main_v165_apply, val_main_cst_19_apply,
    val_main_v164_apply, val_main_call4_v0_apply, val_main_call4_cst_apply, val_main_v163_apply,
    val_main_v158_apply, val_main_v147_apply, val_main_v142_apply, val_main_v141_apply,
    val_main_v140_apply, val_main_v146_apply, val_main_v145_apply, val_main_v157_apply,
    val_main_v156_apply, val_main_v162_apply, val_main_v161_apply]
  rw [eb, em, es, et]
  simp only [Ideal.addf_def, Ideal.subf_def, Ideal.mulf_def, Ideal.maximumf_def, Ideal.ofBits_def]
  obtain ⟨b, hb⟩ := bias2_real x6 h6 q
  obtain ⟨μ, hμ⟩ := mean2_real x9 h9 q
  obtain ⟨s, hs⟩ := scale2_real x7 x10 h7 h10 hpos q
  rw [hb, hμ, hs, Cert.Alg.fold_affine]

end Cert.ReferenceIdeal.RefLayer

end
-- ==== Proof.Chain2.lean ====
/-
  Layer one's activations.

  The second launch applies, in ten row blocks, the folded batch-norm map and the rectifier to the aggregate.
-/
import proofs.«137361_j16638703305297_1_alg».proof.Proof.Chain1
import proofs.«137361_j16638703305297_1_alg».proof.Proof.Post1
import proofs.«137361_j16638703305297_1_alg».proof.Proof.RefLayer

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

variable (m : (ℓ : Loc nD τ sig) → Buf (Elt Ideal) ℓ) (ρ : Dev nD → PrngReg)

/-- The second launch's output — the activations after layer one — is the reference's: at every index the launch computes max(agg·scale + shift, 0) with the folded scale and shift, the reference max(((agg + bias) − mean)·scale + beta, 0); bias, mean and scale are real, so the two agree. -/
theorem W8_v68 (c : Dev nD) (hp : PreH m c) : W8 m ρ c (Proc.devRef .tc main_v68) = val_main_v75 (F := Ideal) (A0 m c) (A1 m c) (A2 m c) (A3 m c) (A4 m c) (A5 m c) (A6 m c) (A7 m c) (A8 m c) (A9 m c) (A10 m c) := by
  funext i
  obtain ⟨r, q, rfl⟩ : ∃ (r : Fin 100000) (q : Fin 128), i = ix2 r q := ⟨i 0, i 1, eq_ix2 i⟩
  refine (congrFun (W8_arr m ρ c 3) (ix2 r q)).trans ?_
  refine (Cert.KernelIdeal.Post1.final (V7 m ρ) c r q _ _ _
    (W7_v48 m ρ c) (W7_v66 m ρ c) (W7_v67 m ρ c)).trans ?_
  have s1 := shapeCast_a_1a_apply (val_main_v66 (F := Ideal) (A7 m c) (A10 m c)) shapeCasts_S128_S1x128 (0 : Fin 1) q
  have s2 := shapeCast_a_1a_apply (shiftVec (val_main_v50 (F := Ideal) (A6 m c)) (val_main_v55 (F := Ideal) (A9 m c)) (val_main_v66 (F := Ideal) (A7 m c) (A10 m c)) (val_main_v71 (F := Ideal) (A8 m c))) shapeCasts_S128_S1x128 (0 : Fin 1) q
  refine (congrArg₂ (fun a b : EReal => max (val_main_v48 (F := Ideal) (A0 m c) (A1 m c) (A2 m c) (A3 m c) (A4 m c) (A5 m c) (ix2 r q) * a + b) (Ideal.ofBits .f32 0x00000000#32)) s1 s2).trans ?_
  exact (Cert.ReferenceIdeal.RefLayer.layer0 (A0 m c) (A1 m c) (A2 m c) (A3 m c) (A4 m c) (A5 m c) (A6 m c) (A7 m c) (A8 m c) (A9 m c) (A10 m c) hp.h6 hp.h7 hp.h9 hp.h10 hp.hpos r q).symm

end Cert.KernelIdeal.Chain

end
-- ==== Proof.Lin2.lean ====
/-
  The second linear layer's region: what its output array holds afterwards.

  The body multiplies a block of 10000 rows of the 100000 x 128 activations by the whole 128 x 128 weight: entry
  (p, q) of the stored block is the sum over k of the block's (p, k) times the weight's (k, q) (rounding the operands
  to a narrower float format is the identity on the extended reals, and the product is accumulated into zero).  The
  ten grid points write the ten row blocks of the output, so the output array is, index by index, that sum with the
  row taken in the whole activations array.
-/
import proofs.«137361_j16638703305297_1_alg».proof.Proof.Gen.KernelIdeal.Frame
import proofs.«137361_j16638703305297_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Lin2

open Idealize.ShloMosaic Idealize.ShloMosaic.TcCoe Idealize.ShloMosaic.ValueIdx Cert.KernelIdeal Cert.KernelIdeal.Gen

/-! ## The product's dimension numbers are the plain ones -/

theorem dot_l0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem dot_l1 (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q

theorem dot_r0 (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q

theorem dot_r1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! ## The body's stored value at an index -/

/-- Entry (p, q) of the block the body stores: row p of the activations block against column q of the weight. -/
theorem pay_apply (x0 : Vec Ideal S10000x128 .f32) (x1 : Vec Ideal S128x128 .f32) (p : Fin 10000) (q : Fin 128) :
    k2_pay1 (F := Ideal) x0 x1 (ix2 p q) = ∑ k : Fin 128, x0 (ix2 p k) * x1 (ix2 k q) := by
  unfold k2_pay1
  rw [shapeCast_self, shapeCast_self]
  exact Cert.Lib.PlainDot.matmul_zero_apply dot_S10000x128_S128x128_S10000x128_1_0_0_1_n_n rfl rfl dot_l0 dot_l1 dot_r0 dot_r1
    none x0 x1 (ix2 p q)

/-! ## The windows' index maps over the grid -/

theorem hz : (![0, 0] : Fin 2 → Nat) = fun _ => 0 := funext fun a => by fin_cases a <;> rfl

/-- The printed index maps, decided over the ten grid points: the activations' block moves with the output's down the
    rows, the weight's block stays at the origin, and no block leaves the first block column. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every one of the ten row blocks is some grid point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-! ## The product of the whole arrays -/

/-- Entry (r, q) of the product of the activations with the weight. -/
def prod (A0 : S100000x128.Idx → EReal) (A1 : S128x128.Idx → EReal) : S100000x128.Idx → EReal :=
  fun i => ∑ k : Fin 128, A0 (ix2 (i 0) k) * A1 (ix2 k (i 1))

theorem prod_apply (A0 : S100000x128.Idx → EReal) (A1 : S128x128.Idx → EReal) (r : Fin 100000) (q : Fin 128) :
    prod A0 A1 (ix2 r q) = ∑ k : Fin 128, A0 (ix2 r k) * A1 (ix2 k q) := rfl

/-- A stored block is a row block of the product, when the blocks the body loaded are a row block of the activations,
    starting at row `b * 10000`, and the whole weight. -/
theorem pay_eq_prod (A0 : S100000x128.Idx → EReal) (A1 : S128x128.Idx → EReal)
    (x0 : Vec Ideal S10000x128 .f32) (x1 : Vec Ideal S128x128 .f32) (b : Nat)
    (h0 : ∀ (p : Fin 10000) (k : Fin 128) (r : Fin 100000), r.val = b * 10000 + p.val → x0 (ix2 p k) = A0 (ix2 r k))
    (h1 : ∀ (k q : Fin 128), x1 (ix2 k q) = A1 (ix2 k q))
    (j : S10000x128.Idx) (i : S100000x128.Idx) (hi0 : (i 0).val = b * 10000 + (j 0).val) (hi1 : (i 1).val = (j 1).val) :
    k2_pay1 (F := Ideal) x0 x1 j = prod A0 A1 i := by
  obtain ⟨p, q, rfl⟩ : ∃ (p : Fin 10000) (q : Fin 128), j = ix2 p q := ⟨j 0, j 1, eq_ix2 j⟩
  obtain ⟨r, s, rfl⟩ : ∃ (r : Fin 100000) (s : Fin 128), i = ix2 r s := ⟨i 0, i 1, eq_ix2 i⟩
  have hr : r.val = b * 10000 + p.val := hi0
  obtain rfl : s = q := Fin.ext hi1
  rw [pay_apply, prod_apply]
  exact Finset.sum_congr rfl fun k _ => by rw [h0 p k r hr, h1 k s]

/-! ## What a grid point writes back -/

section
variable (V : (c : Dev nD) → (b : Ref sig .tc) → Buf (Elt Ideal) ((c : Thread nD τ).loc b))

/-- An element of the activations' block at point `t` sits in the array `index * 10000` rows further down. -/
theorem emb0 (t : Fin cfg2.N) (p : Fin 10000) (k : Fin 128) (r : Fin 100000)
    (hr : r.val = win2_2.index t (0 : Fin 2) * 10000 + p.val) :
    ((cfg2.win 0).blk t).view.emb (ix2 p k) = ix2 r k := by
  obtain ⟨e0, e1, e2, e3, e4, e5⟩ := idx_facts t
  funext a; apply Fin.ext
  match a with
  | ⟨0, _⟩ => show win2_0.index t (0 : Fin 2) * 10000 + 1 * p.val = r.val; omega
  | ⟨1, _⟩ => show win2_0.index t (1 : Fin 2) * 128 + 1 * k.val = k.val; omega

/-- The weight's block at any point is the whole weight. -/
theorem emb1 (t : Fin cfg2.N) (k q : Fin 128) :
    ((cfg2.win 1).blk t).view.emb (ix2 k q) = ix2 k q := by
  obtain ⟨e0, e1, e2, e3, e4, e5⟩ := idx_facts t
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- Point `t` writes back block `t` of the product of the arrays as the region finds them. -/
theorem flushed_eq (c : Dev nD) (t : Fin cfg2.N) :
    (dat2 (F := Ideal) V c).flushed 2 t
      = ((cfg2.win 2).blk t).view.read (Elt Ideal) (prod (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  funext j
  show k2_pay1 (F := Ideal) (iblk2 V c 0 t) (iblk2 V c 1 t) j
    = prod (V c (Pipeline.arrRef spec2 0)) (V c (Pipeline.arrRef spec2 1)) (((cfg2.win 2).blk t).view.emb j)
  refine pay_eq_prod _ _ (iblk2 V c 0 t) (iblk2 V c 1 t) (win2_2.index t (0 : Fin 2)) ?_ ?_ j _ ?_ ?_
  · intro p k r hr
    show V c (Pipeline.arrRef spec2 0) (((cfg2.win 0).blk t).view.emb (ix2 p k)) = V c (Pipeline.arrRef spec2 0) (ix2 r k)
    rw [emb0 t p k r hr]
  · intro k q
    show V c (Pipeline.arrRef spec2 1) (((cfg2.win 1).blk t).view.emb (ix2 k q)) = V c (Pipeline.arrRef spec2 1) (ix2 k q)
    rw [emb1 t k q]
  · show win2_2.index t (0 : Fin 2) * 10000 + 1 * (j 0).val = win2_2.index t (0 : Fin 2) * 10000 + (j 0).val; omega
  · obtain ⟨e0, e1, e2, e3, e4, e5⟩ := idx_facts t
    show win2_2.index t (1 : Fin 2) * 128 + 1 * (j 1).val = (j 1).val; omega

/-! ## The blocks cover the array -/

/-- An index of the output array is in point `t`'s block iff each coordinate is in the block's range on its axis. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v71).slice (win2_2.rect t)).set ↔ _
  rw [View.set_slice_whole, Rect.mem_set_unit]
  exact Iff.rfl

/-- Row `r` is in the block of the point whose block index is `r / 10000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-! ## The output array after the region -/

/-- After the region the output array is the product of the two input arrays as the region found them. -/
theorem final_arr (c : Dev nD) :
    (dat2 (F := Ideal) V c).arrAt 2 cfg2.N = prod (V c (Pipeline.arrRef spec2 0)) (V c (Pipeline.arrRef spec2 1)) :=
  (dat2 V c).arrAt_eq_of_cover 2 _ (fun t _ => flushed_eq V c t) cover

/-- The same, index by index, with the two input arrays named. -/
theorem final (c : Dev nD) (r : Fin 100000) (q : Fin 128)
    (A0 : S100000x128.Idx → EReal) (A1 : S128x128.Idx → EReal)
    (h0 : V c (Pipeline.arrRef spec2 0) = A0) (h1 : V c (Pipeline.arrRef spec2 1) = A1) :
    (dat2 (F := Ideal) V c).arrAt 2 cfg2.N (ix2 r q) = ∑ k : Fin 128, A0 (ix2 r k) * A1 (ix2 k q) := by
  subst h0 h1
  rw [final_arr]; rfl

end

end Cert.KernelIdeal.Lin2

end
-- ==== Proof.Chain3.lean ====
/-
  Layer two up to its aggregate's operand: the weight matrix and the third launch (a matrix product).
-/
import proofs.«137361_j16638703305297_1_alg».proof.Proof.Chain2
import proofs.«137361_j16638703305297_1_alg».proof.Proof.Lin2

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

variable (m : (ℓ : Loc nD τ sig) → Buf (Elt Ideal) ℓ) (ρ : Dev nD → PrngReg)

set_option maxHeartbeats 2000000 in
/-- A launch leaves every buffer that is not one of its windows' arrays as it found it. -/
theorem carried8 (c : Dev nD) : Carried m c (W8 m ρ c) :=
  have h := carried7 m ρ c
  { v1 := (W8_of_ne m ρ c main_v1 (by decide)).trans h.v1
    v3 := (W8_of_ne m ρ c main_v3 (by decide)).trans h.v3
    v26 := (W8_of_ne m ρ c main_v26 (by decide)).trans h.v26
    a5 := (W8_of_ne m ρ c main_arg5 (by decide)).trans h.a5
    a6 := (W8_of_ne m ρ c main_arg6 (by decide)).trans h.a6
    a7 := (W8_of_ne m ρ c main_arg7 (by decide)).trans h.a7
    a8 := (W8_of_ne m ρ c main_arg8 (by decide)).trans h.a8
    a9 := (W8_of_ne m ρ c main_arg9 (by decide)).trans h.a9
    a10 := (W8_of_ne m ρ c main_arg10 (by decide)).trans h.a10 }

theorem W9_eq (c : Dev nD) : W9 m ρ c = StableHlo.after hostOps2 (W8 m ρ c) := rfl

set_option maxHeartbeats 4000000 in
/-- The stretch writes none of the carried buffers. -/
theorem carried9 (c : Dev nD) : Carried m c (W9 m ρ c) :=
  have h := carried8 m ρ c
  { v1 := by rw [W9_eq]; after_results_simp; exact h.v1
    v3 := by rw [W9_eq]; after_results_simp; exact h.v3
    v26 := by rw [W9_eq]; after_results_simp; exact h.v26
    a5 := by rw [W9_eq]; after_results_simp; exact h.a5
    a6 := by rw [W9_eq]; after_results_simp; exact h.a6
    a7 := by rw [W9_eq]; after_results_simp; exact h.a7
    a8 := by rw [W9_eq]; after_results_simp; exact h.a8
    a9 := by rw [W9_eq]; after_results_simp; exact h.a9
    a10 := by rw [W9_eq]; after_results_simp; exact h.a10 }

set_option maxHeartbeats 1000000 in
/-- The layer's weight matrix, sliced out of the stacked weights. -/
theorem W9_v70 (c : Dev nD) : W9 m ρ c (Proc.devRef .tc main_v70) = val_main_v77 (F := Ideal) (A5 m c) := by
  have h := carried8 m ρ c
  rw [W9_eq]; after_results_simp; rw [h.a5]; rfl

/-- The stretch leaves the previous layer's activations in place. -/
theorem W9_v68 (c : Dev nD) (hp : PreH m c) : W9 m ρ c (Proc.devRef .tc main_v68) = val_main_v75 (F := Ideal) (A0 m c) (A1 m c) (A2 m c) (A3 m c) (A4 m c) (A5 m c) (A6 m c) (A7 m c) (A8 m c) (A9 m c) (A10 m c) := by
  rw [W9_eq]; after_results_simp; exact W8_v68 m ρ c hp

set_option maxHeartbeats 2000000 in
/-- A launch leaves every buffer that is not one of its windows' arrays as it found it. -/
theorem carried10 (c : Dev nD) : Carried m c (W10 m ρ c) :=
  have h := carried9 m ρ c
  { v1 := (W10_of_ne m ρ c main_v1 (by decide)).trans h.v1
    v3 := (W10_of_ne m ρ c main_v3 (by decide)).trans h.v3
    v26 := (W10_of_ne m ρ c main_v26 (by decide)).trans h.v26
    a5 := (W10_of_ne m ρ c main_arg5 (by decide)).trans h.a5
    a6 := (W10_of_ne m ρ c main_arg6 (by decide)).trans h.a6
    a7 := (W10_of_ne m ρ c main_arg7 (by decide)).trans h.a7
    a8 := (W10_of_ne m ρ c main_arg8 (by decide)).trans h.a8
    a9 := (W10_of_ne m ρ c main_arg9 (by decide)).trans h.a9
    a10 := (W10_of_ne m ρ c main_arg10 (by decide)).trans h.a10 }

/-- The reference's matrix product read at an index: the sum over k of activation (r, k) times weight (k, c). -/
theorem v78_at (c : Dev nD) (r : Fin 100000) (q : Fin 128) :
    val_main_v78 (F := Ideal) (A0 m c) (A1 m c) (A2 m c) (A3 m c) (A4 m c) (A5 m c) (A6 m c) (A7 m c) (A8 m c) (A9 m c) (A10 m c) (ix2 r q)
      = ∑ k : Fin 128, val_main_v75 (F := Ideal) (A0 m c) (A1 m c) (A2 m c) (A3 m c) (A4 m c) (A5 m c) (A6 m c) (A7 m c) (A8 m c) (A9 m c) (A10 m c) (ix2 r k) * val_main_v77 (F := Ideal) (A5 m c) (ix2 k q) := by
  rw [val_main_v78_apply]
  refine Finset.sum_congr rfl fun k _ => ?_
  exact congrArg₂ (fun a b : EReal => a * b)
    (congrArg (val_main_v75 (F := Ideal) (A0 m c) (A1 m c) (A2 m c) (A3 m c) (A4 m c) (A5 m c) (A6 m c) (A7 m c) (A8 m c) (A9 m c) (A10 m c)) (funext fun a => Fin.ext (by match a with | ⟨0, _⟩ => rfl | ⟨1, _⟩ => rfl)))
    (congrArg (val_main_v77 (F := Ideal) (A5 m c)) (funext fun a => Fin.ext (by match a with | ⟨0, _⟩ => rfl | ⟨1, _⟩ => rfl)))

/-- The launch's output array is the reference's matrix product of the layer. -/
theorem W10_v71 (c : Dev nD) (hp : PreH m c) : W10 m ρ c (Proc.devRef .tc main_v71) = val_main_v78 (F := Ideal) (A0 m c) (A1 m c) (A2 m c) (A3 m c) (A4 m c) (A5 m c) (A6 m c) (A7 m c) (A8 m c) (A9 m c) (A10 m c) := by
  funext i
  obtain ⟨r, q, rfl⟩ : ∃ (r : Fin 100000) (q : Fin 128), i = ix2 r q := ⟨i 0, i 1, eq_ix2 i⟩
  refine (congrFun (W10_arr m ρ c 2) (ix2 r q)).trans ?_
  exact (Cert.KernelIdeal.Lin2.final (V9 m ρ) c r q _ _ (W9_v68 m ρ c hp) (W9_v70 m ρ c)).trans (v78_at m c r q).symm

/-- The launch reads the previous activations through an input window and leaves them in place. -/
theorem W10_v68 (c : Dev nD) (hp : PreH m c) : W10 m ρ c (Proc.devRef .tc main_v68) = val_main_v75 (F := Ideal) (A0 m c) (A1 m c) (A2 m c) (A3 m c) (A4 m c) (A5 m c) (A6 m c) (A7 m c) (A8 m c) (A9 m c) (A10 m c) :=
  (W10_arr m ρ c 0).trans ((((dat2 (V9 m ρ) c).arrAt_in 0 rfl _).trans (A_eq2 (V9 m ρ) c 0)).trans (W9_v68 m ρ c hp))

end Cert.KernelIdeal.Chain

end
-- ==== Proof.Chain4.lean ====
/-
  Layer two's aggregate, folded scale and folded shift, and the previous activations kept for the residual.
-/
import proofs.«137361_j16638703305297_1_alg».proof.Proof.Chain3

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

variable (m : (ℓ : Loc nD τ sig) → Buf (Elt Ideal) ℓ) (ρ : Dev nD → PrngReg)

theorem W11_eq (c : Dev nD) : W11 m ρ c = StableHlo.after hostOps3 (W10 m ρ c) := rfl

set_option maxHeartbeats 4000000 in
/-- The stretch writes none of the carried buffers. -/
theorem carried11 (c : Dev nD) : Carried m c (W11 m ρ c) :=
  have h := carried10 m ρ c
  { v1 := by rw [W11_eq]; after_results_simp; exact h.v1
    v3 := by rw [W11_eq]; after_results_simp; exact h.v3
    v26 := by rw [W11_eq]; after_results_simp; exact h.v26
    a5 := by rw [W11_eq]; after_results_simp; exact h.a5
    a6 := by rw [W11_eq]; after_results_simp; exact h.a6
    a7 := by rw [W11_eq]; after_results_simp; exact h.a7
    a8 := by rw [W11_eq]; after_results_simp; exact h.a8
    a9 := by rw [W11_eq]; after_results_simp; exact h.a9
    a10 := by rw [W11_eq]; after_results_simp; exact h.a10 }

set_option maxHeartbeats 2000000 in
/-- The layer's aggregate: gather, scale and scatter-add of the layer's product. -/
theorem W11_v84 (c : Dev nD) (hp : PreH m c) : W11 m ρ c (Proc.devRef .tc main_v84) = val_main_v91 (F := Ideal) (A0 m c) (A1 m c) (A2 m c) (A3 m c) (A4 m c) (A5 m c) (A6 m c) (A7 m c) (A8 m c) (A9 m c) (A10 m c) := by
  have h := carried10 m ρ c
  rw [W11_eq]; after_results_simp; rw [W10_v71 m ρ c hp, h.v1, h.v3, h.v26]; rfl

set_option maxHeartbeats 2000000 in
/-- The layer's folded scale, as a one-row matrix. -/
theorem W11_v102 (c : Dev nD) : W11 m ρ c (Proc.devRef .tc main_v102)
    = shapeCast S1x128 (val_main_v109 (F := Ideal) (A7 m c) (A10 m c)) shapeCasts_S128_S1x128 := by
  have h := carried10 m ρ c
  rw [W11_eq]; after_results_simp; rw [h.a7, h.a10]; rfl

set_option maxHeartbeats 2000000 in
/-- The layer's folded shift, as a one-row matrix. -/
theorem W11_v103 (c : Dev nD) : W11 m ρ c (Proc.devRef .tc main_v103)
    = shapeCast S1x128 (shiftVec (val_main_v93 (F := Ideal) (A6 m c)) (val_main_v98 (F := Ideal) (A9 m c)) (val_main_v109 (F := Ideal) (A7 m c) (A10 m c)) (val_main_v114 (F := Ideal) (A8 m c))) shapeCasts_S128_S1x128 := by
  have h := carried10 m ρ c
  rw [W11_eq]; after_results_simp; rw [h.a6, h.a7, h.a8, h.a9, h.a10]; rfl

set_option maxHeartbeats 2000000 in
/-- The stretch leaves the previous layer's activations in place. -/
theorem W11_v68 (c : Dev nD) (hp : PreH m c) : W11 m ρ c (Proc.devRef .tc main_v68) = val_main_v75 (F := Ideal) (A0 m c) (A1 m c) (A2 m c) (A3 m c) (A4 m c) (A5 m c) (A6 m c) (A7 m c) (A8 m c) (A9 m c) (A10 m c) := by
  rw [W11_eq]; after_results_simp; exact W10_v68 m ρ c hp

end Cert.KernelIdeal.Chain

end
-- ==== Proof.Post3.lean ====
/- Region 3 (scale, shift, clamp at zero, then add half of the previous activations), read index by index. Each grid point t
   handles rows 10000·t … 10000·t + 9999 of a 100000 × 128 array: it multiplies the block by the scale row, adds the shift row, takes
   the maximum with zero and adds one half times the same rows of the previous activations. The ten row blocks tile the array, so
   after the region the output array holds, at (r, q), max (agg (r, q) · scale (0, q) + shift (0, q)) 0 + ½ · prev (r, q) of the
   input arrays as the region finds them. -/
import proofs.«137361_j16638703305297_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Post3

open Idealize.ShloMosaic Idealize.ShloMosaic.TcCoe Idealize.ShloMosaic.ValueIdx Cert.KernelIdeal Cert.KernelIdeal.Gen

/-- The zero offsets of a whole-buffer access, however they are spelt. -/
theorem hz : (![0, 0] : Fin 2 → Nat) = fun _ => 0 := funext fun a => by fin_cases a <;> rfl

/-- The array the region leaves, index by index: scale, shift, clamp below at zero, add half of the previous activations; the scale
    and the shift are rows read at the entry's column. -/
def G (A0 : S100000x128.Idx → EReal) (A1 A2 : S1x128.Idx → EReal) (A3 : S100000x128.Idx → EReal) : S100000x128.Idx → EReal :=
  fun i => max (A0 i * A1 (ix2 (0 : Fin 1) (i 1 : Fin 128)) + A2 (ix2 (0 : Fin 1) (i 1 : Fin 128))) (Ideal.ofBits .f32 0x00000000#32)
    + Ideal.ofBits .f32 0x3F000000#32 * A3 i

/-- The body's arithmetic at one entry of a block. -/
theorem pay_apply (x0 : Vec Ideal S10000x128 .f32) (x1 x2 : Vec Ideal S1x128 .f32) (x3 : Vec Ideal S10000x128 .f32) (p : Fin 10000) (q : Fin 128) :
    k3_pay1 x0 x1 x2 x3 (ix2 p q)
      = max (x0 (ix2 p q) * x1 (ix2 0 q) + x2 (ix2 0 q)) (Ideal.ofBits .f32 0x00000000#32)
        + Ideal.ofBits .f32 0x3F000000#32 * x3 (ix2 p q) := by
  unfold k3_pay1
  simp only [shapeCast_self]
  rw [addf_apply, maximumf_apply, addf_apply, mulf_apply, mulf_apply, broadcast_apply, broadcast_apply,
    broadcastTo_1b_ab_apply, broadcastTo_1b_ab_apply]
  rfl

/-- The same at an index not yet split into coordinates. -/
theorem pay_apply' (x0 : Vec Ideal S10000x128 .f32) (x1 x2 : Vec Ideal S1x128 .f32) (x3 : Vec Ideal S10000x128 .f32) (j : S10000x128.Idx) :
    k3_pay1 x0 x1 x2 x3 j
      = max (x0 j * x1 (ix2 (0 : Fin 1) (j 1 : Fin 128)) + x2 (ix2 (0 : Fin 1) (j 1 : Fin 128))) (Ideal.ofBits .f32 0x00000000#32)
        + Ideal.ofBits .f32 0x3F000000#32 * x3 j := by
  obtain ⟨p, q, rfl⟩ : ∃ (p : Fin 10000) (q : Fin 128), j = ix2 p q := ⟨j 0, j 1, eq_ix2 j⟩
  exact pay_apply x0 x1 x2 x3 p q

/-- The printed index maps, decided over the grid: the row-block windows move together, every other block index is zero. -/
theorem idx_facts : ∀ t : Fin cfg3.N, win3_0.index t (0 : Fin 2) = win3_4.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = win3_4.index t (0 : Fin 2)
    ∧ win3_3.index t (1 : Fin 2) = 0
    ∧ win3_4.index t (1 : Fin 2) = 0 ∧ win3_4.index t (0 : Fin 2) ≤ 9 :=
  (by decide +kernel : ∀ t : Fin grid3.N, _)

/-- Every row block is some point's. -/
theorem idx_onto : ∀ q0 : Fin 10, ∃ t : Fin cfg3.N, win3_4.index t = ![q0.val, 0] :=
  (by decide +kernel : ∀ q0 : Fin 10, ∃ t : Fin grid3.N, win3_4.index t = ![q0.val, 0])

section
variable (V : (c : Dev nD) → (b : Ref sig .tc) → Buf (Elt Ideal) ((c : Thread nD τ).loc b))

/-- An entry of window 0's block at point t is the array's entry at block index × block size + the coordinate inside. -/
theorem blk0_apply (c : Dev nD) (t : Fin cfg3.N) (y : S10000x128.Idx) (i : S100000x128.Idx)
    (h0 : win3_0.index t (0 : Fin 2) * 10000 + 1 * (y 0).val = (i 0).val)
    (h1 : win3_0.index t (1 : Fin 2) * 128 + 1 * (y 1).val = (i 1).val) :
    (iblk3 V c 0 t : Vec Ideal S10000x128 .f32) y = (V c (Pipeline.arrRef spec3 0) : S100000x128.Idx → EReal) i := by
  unfold iblk3
  rw [View.read_apply]
  show V c (Pipeline.arrRef spec3 0) _ = V c (Pipeline.arrRef spec3 0) _
  refine congrArg _ (funext fun a => Fin.ext ?_)
  match a with
  | ⟨0, _⟩ => exact h0
  | ⟨1, _⟩ => exact h1

/-- An entry of the scale row's block is the row's entry at the same column (its block index is zero on both axes). -/
theorem blk1_apply (c : Dev nD) (t : Fin cfg3.N) (y : S1x128.Idx) (i : S1x128.Idx)
    (h0 : win3_1.index t (0 : Fin 2) * 1 + 1 * (y 0).val = (i 0).val)
    (h1 : win3_1.index t (1 : Fin 2) * 128 + 1 * (y 1).val = (i 1).val) :
    (iblk3 V c 1 t : Vec Ideal S1x128 .f32) y = (V c (Pipeline.arrRef spec3 1) : S1x128.Idx → EReal) i := by
  unfold iblk3
  rw [View.read_apply]
  show V c (Pipeline.arrRef spec3 1) _ = V c (Pipeline.arrRef spec3 1) _
  refine congrArg _ (funext fun a => Fin.ext ?_)
  match a with
  | ⟨0, _⟩ => exact h0
  | ⟨1, _⟩ => exact h1

/-- The same for the shift row. -/
theorem blk2_apply (c : Dev nD) (t : Fin cfg3.N) (y : S1x128.Idx) (i : S1x128.Idx)
    (h0 : win3_2.index t (0 : Fin 2) * 1 + 1 * (y 0).val = (i 0).val)
    (h1 : win3_2.index t (1 : Fin 2) * 128 + 1 * (y 1).val = (i 1).val) :
    (iblk3 V c 2 t : Vec Ideal S1x128 .f32) y = (V c (Pipeline.arrRef spec3 2) : S1x128.Idx → EReal) i := by
  unfold iblk3
  rw [View.read_apply]
  show V c (Pipeline.arrRef spec3 2) _ = V c (Pipeline.arrRef spec3 2) _
  refine congrArg _ (funext fun a => Fin.ext ?_)
  match a with
  | ⟨0, _⟩ => exact h0
  | ⟨1, _⟩ => exact h1

/-- An entry of the previous activations' block at point t, as for window 0. -/
theorem blk3_apply (c : Dev nD) (t : Fin cfg3.N) (y : S10000x128.Idx) (i : S100000x128.Idx)
    (h0 : win3_3.index t (0 : Fin 2) * 10000 + 1 * (y 0).val = (i 0).val)
    (h1 : win3_3.index t (1 : Fin 2) * 128 + 1 * (y 1).val = (i 1).val) :
    (iblk3 V c 3 t : Vec Ideal S10000x128 .f32) y = (V c (Pipeline.arrRef spec3 3) : S100000x128.Idx → EReal) i := by
  unfold iblk3
  rw [View.read_apply]
  show V c (Pipeline.arrRef spec3 3) _ = V c (Pipeline.arrRef spec3 3) _
  refine congrArg _ (funext fun a => Fin.ext ?_)
  match a with
  | ⟨0, _⟩ => exact h0
  | ⟨1, _⟩ => exact h1

/-- What point t writes back is block t of G of the arrays as the region finds them. -/
theorem flushed_eq (c : Dev nD) (t : Fin cfg3.N) :
    (dat3 V c).flushed 4 t = ((cfg3.win 4).blk t).view.read (Elt Ideal)
      (G (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero hz]
  simp only [View.ld_unit_zero (S := S10000x128) hz, View.ld_unit_zero (S := S1x128) hz]
  obtain ⟨e0, e1, e2, e3, e4, e5, e6, e7, e8, e9⟩ := idx_facts t
  funext j
  have hj0 : (j 0).val < 10000 := (j 0).isLt
  have hj1 : (j 1).val < 128 := (j 1).isLt
  refine (pay_apply' (iblk3 V c 0 t) (iblk3 V c 1 t) (iblk3 V c 2 t) (iblk3 V c 3 t) ((cfg3.win 4).xinj (grid3.coords t) j)).trans ?_
  rw [blk0_apply V c t ((cfg3.win 4).xinj (grid3.coords t) j) (((cfg3.win 4).blk t).view.emb j)
        (by show win3_0.index t (0 : Fin 2) * 10000 + 1 * (j 0).val = win3_4.index t (0 : Fin 2) * 10000 + 1 * (j 0).val; omega)
        (by show win3_0.index t (1 : Fin 2) * 128 + 1 * (j 1).val = win3_4.index t (1 : Fin 2) * 128 + 1 * (j 1).val; omega),
      blk1_apply V c t (ix2 (0 : Fin 1) ((cfg3.win 4).xinj (grid3.coords t) j 1 : Fin 128)) (ix2 (0 : Fin 1) ((((cfg3.win 4).blk t).view.emb j) 1 : Fin 128))
        (by show win3_1.index t (0 : Fin 2) * 1 + 1 * 0 = 0; omega)
        (by show win3_1.index t (1 : Fin 2) * 128 + 1 * (j 1).val = win3_4.index t (1 : Fin 2) * 128 + 1 * (j 1).val; omega),
      blk2_apply V c t (ix2 (0 : Fin 1) ((cfg3.win 4).xinj (grid3.coords t) j 1 : Fin 128)) (ix2 (0 : Fin 1) ((((cfg3.win 4).blk t).view.emb j) 1 : Fin 128))
        (by show win3_2.index t (0 : Fin 2) * 1 + 1 * 0 = 0; omega)
        (by show win3_2.index t (1 : Fin 2) * 128 + 1 * (j 1).val = win3_4.index t (1 : Fin 2) * 128 + 1 * (j 1).val; omega),
      blk3_apply V c t ((cfg3.win 4).xinj (grid3.coords t) j) (((cfg3.win 4).blk t).view.emb j)
        (by show win3_3.index t (0 : Fin 2) * 10000 + 1 * (j 0).val = win3_4.index t (0 : Fin 2) * 10000 + 1 * (j 0).val; omega)
        (by show win3_3.index t (1 : Fin 2) * 128 + 1 * (j 1).val = win3_4.index t (1 : Fin 2) * 128 + 1 * (j 1).val; omega)]
  rfl

/-- An index of the array is in point t's block iff each coordinate is in the block's range on its axis. -/
theorem mem_blk (t : Fin cfg3.N) (i : S100000x128.Idx) :
    i ∈ ((cfg3.win 4).blk t).view.set ↔ ∀ a : Fin 2, win3_4.index t a * S10000x128.size a ≤ (i a).val ∧ (i a).val < win3_4.index t a * S10000x128.size a + S10000x128.size a := by
  show i ∈ ((View.whole main_v104).slice (win3_4.rect t)).set ↔ _
  rw [View.set_slice_whole, Rect.mem_set_unit]
  exact Iff.rfl

/-- Row r lies in the block of the point whose block index is r / 10000. -/
theorem cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ := idx_onto ⟨(i 0).val / 10000, by omega⟩
  have q0 : win3_4.index t (0 : Fin 2) = (i 0).val / 10000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 128 ≤ (i 1).val ∧ (i 1).val < win3_4.index t (1 : Fin 2) * 128 + 128; omega

/-- The output array after the region is G of the input arrays at the region's entry. -/
theorem final_arr (c : Dev nD) :
    (dat3 V c).arrAt 4 cfg3.N = G (V c (Pipeline.arrRef spec3 0)) (V c (Pipeline.arrRef spec3 1)) (V c (Pipeline.arrRef spec3 2)) (V c (Pipeline.arrRef spec3 3)) :=
  (dat3 V c).arrAt_eq_of_cover 4 _ (fun t _ => flushed_eq V c t) cover

end

/-- G at an entry. -/
theorem G_apply (A0 : S100000x128.Idx → EReal) (A1 A2 : S1x128.Idx → EReal) (A3 : S100000x128.Idx → EReal) (r : Fin 100000) (q : Fin 128) :
    G A0 A1 A2 A3 (ix2 r q) = max (A0 (ix2 r q) * A1 (ix2 0 q) + A2 (ix2 0 q)) (Ideal.ofBits .f32 0x00000000#32)
      + Ideal.ofBits .f32 0x3F000000#32 * A3 (ix2 r q) := rfl

/-- The output array after the region, entry by entry, the input arrays at the region's entry named A0, A1, A2, A3. -/
theorem final (V : (c : Dev nD) → (b : Ref sig .tc) → Buf (Elt Ideal) ((c : Thread nD τ).loc b)) (c : Dev nD) (r : Fin 100000) (q : Fin 128)
    (A0 : S100000x128.Idx → EReal) (A1 A2 : S1x128.Idx → EReal) (A3 : S100000x128.Idx → EReal)
    (h0 : V c (Pipeline.arrRef spec3 0) = A0) (h1 : V c (Pipeline.arrRef spec3 1) = A1) (h2 : V c (Pipeline.arrRef spec3 2) = A2)
    (h3 : V c (Pipeline.arrRef spec3 3) = A3) :
    (dat3 (F := Ideal) V c).arrAt 4 cfg3.N (ix2 r q)
      = max (A0 (ix2 r q) * A1 (ix2 0 q) + A2 (ix2 0 q)) (Ideal.ofBits .f32 0x00000000#32)
        + Ideal.ofBits .f32 0x3F000000#32 * A3 (ix2 r q) := by
  subst h0 h1 h2 h3
  exact (congrFun (final_arr V c) (ix2 r q)).trans rfl

end Cert.KernelIdeal.Post3
end
-- ==== Proof.Chain5.lean ====
/-
  Layer two's activations.

  The fourth launch applies the folded batch-norm map and the rectifier to the aggregate and adds half the
  previous activations.
-/
import proofs.«137361_j16638703305297_1_alg».proof.Proof.Chain4
import proofs.«137361_j16638703305297_1_alg».proof.Proof.Post3

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

variable (m : (ℓ : Loc nD τ sig) → Buf (Elt Ideal) ℓ) (ρ : Dev nD → PrngReg)

/-- The fourth launch's output — the activations after layer two — is the reference's: max(agg·scale + shift, 0) + half the previous activations on one side, max(((agg + bias) − mean)·scale + beta, 0) + half the previous activations on the other, with real bias, mean and scale. -/
theorem W12_v104 (c : Dev nD) (hp : PreH m c) : W12 m ρ c (Proc.devRef .tc main_v104) = val_main_v121 (F := Ideal) (A0 m c) (A1 m c) (A2 m c) (A3 m c) (A4 m c) (A5 m c) (A6 m c) (A7 m c) (A8 m c) (A9 m c) (A10 m c) := by
  funext i
  obtain ⟨r, q, rfl⟩ : ∃ (r : Fin 100000) (q : Fin 128), i = ix2 r q := ⟨i 0, i 1, eq_ix2 i⟩
  refine (congrFun (W12_arr m ρ c 4) (ix2 r q)).trans ?_
  refine (Cert.KernelIdeal.Post3.final (V11 m ρ) c r q _ _ _ _
    (W11_v84 m ρ c hp) (W11_v102 m ρ c) (W11_v103 m ρ c) (W11_v68 m ρ c hp)).trans ?_
  have s1 := shapeCast_a_1a_apply (val_main_v109 (F := Ideal) (A7 m c) (A10 m c)) shapeCasts_S128_S1x128 (0 : Fin 1) q
  have s2 := shapeCast_a_1a_apply (shiftVec (val_main_v93 (F := Ideal) (A6 m c)) (val_main_v98 (F := Ideal) (A9 m c)) (val_main_v109 (F := Ideal) (A7 m c) (A10 m c)) (val_main_v114 (F := Ideal) (A8 m c))) shapeCasts_S128_S1x128 (0 : Fin 1) q
  refine (congrArg₂ (fun a b : EReal => max (val_main_v91 (F := Ideal) (A0 m c) (A1 m c) (A2 m c) (A3 m c) (A4 m c) (A5 m c) (A6 m c) (A7 m c) (A8 m c) (A9 m c) (A10 m c) (ix2 r q) * a + b) (Ideal.ofBits .f32 0x00000000#32) + Ideal.ofBits .f32 0x3F000000#32 * val_main_v75 (F := Ideal) (A0 m c) (A1 m c) (A2 m c) (A3 m c) (A4 m c) (A5 m c) (A6 m c) (A7 m c) (A8 m c) (A9 m c) (A10 m c) (ix2 r q)) s1 s2).trans ?_
  exact (Cert.ReferenceIdeal.RefLayer.layer1 (A0 m c) (A1 m c) (A2 m c) (A3 m c) (A4 m c) (A5 m c) (A6 m c) (A7 m c) (A8 m c) (A9 m c) (A10 m c) hp.h6 hp.h7 hp.h9 hp.h10 hp.hpos r q).symm

end Cert.KernelIdeal.Chain

end
-- ==== Proof.Lin4.lean ====
/-
  The third linear layer's region: what its output array holds afterwards.

  The body multiplies a block of 10000 rows of the 100000 x 128 activations by the whole 128 x 128 weight: entry
  (p, q) of the stored block is the sum over k of the block's (p, k) times the weight's (k, q) (rounding the operands
  to a narrower float format is the identity on the extended reals, and the product is accumulated into zero).  The
  ten grid points write the ten row blocks of the output, so the output array is, index by index, that sum with the
  row taken in the whole activations array.
-/
import proofs.«137361_j16638703305297_1_alg».proof.Proof.Gen.KernelIdeal.Frame
import proofs.«137361_j16638703305297_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Lin4

open Idealize.ShloMosaic Idealize.ShloMosaic.TcCoe Idealize.ShloMosaic.ValueIdx Cert.KernelIdeal Cert.KernelIdeal.Gen

/-! ## The product's dimension numbers are the plain ones -/

theorem dot_l0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem dot_l1 (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q

theorem dot_r0 (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q

theorem dot_r1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! ## The body's stored value at an index -/

/-- Entry (p, q) of the block the body stores: row p of the activations block against column q of the weight. -/
theorem pay_apply (x0 : Vec Ideal S10000x128 .f32) (x1 : Vec Ideal S128x128 .f32) (p : Fin 10000) (q : Fin 128) :
    k4_pay1 (F := Ideal) x0 x1 (ix2 p q) = ∑ k : Fin 128, x0 (ix2 p k) * x1 (ix2 k q) := by
  unfold k4_pay1
  rw [shapeCast_self, shapeCast_self]
  exact Cert.Lib.PlainDot.matmul_zero_apply dot_S10000x128_S128x128_S10000x128_1_0_0_1_n_n rfl rfl dot_l0 dot_l1 dot_r0 dot_r1
    none x0 x1 (ix2 p q)

/-! ## The windows' index maps over the grid -/

theorem hz : (![0, 0] : Fin 2 → Nat) = fun _ => 0 := funext fun a => by fin_cases a <;> rfl

/-- The printed index maps, decided over the ten grid points: the activations' block moves with the output's down the
    rows, the weight's block stays at the origin, and no block leaves the first block column. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 9 :=
  (by decide +kernel : ∀ t : Fin grid4.N, _)

/-- Every one of the ten row blocks is some grid point's. -/
theorem idx_onto : ∀ q0 : Fin 10, ∃ t : Fin cfg4.N, win4_2.index t = ![q0.val, 0] :=
  (by decide +kernel : ∀ q0 : Fin 10, ∃ t : Fin grid4.N, win4_2.index t = ![q0.val, 0])

/-! ## The product of the whole arrays -/

/-- Entry (r, q) of the product of the activations with the weight. -/
def prod (A0 : S100000x128.Idx → EReal) (A1 : S128x128.Idx → EReal) : S100000x128.Idx → EReal :=
  fun i => ∑ k : Fin 128, A0 (ix2 (i 0) k) * A1 (ix2 k (i 1))

theorem prod_apply (A0 : S100000x128.Idx → EReal) (A1 : S128x128.Idx → EReal) (r : Fin 100000) (q : Fin 128) :
    prod A0 A1 (ix2 r q) = ∑ k : Fin 128, A0 (ix2 r k) * A1 (ix2 k q) := rfl

/-- A stored block is a row block of the product, when the blocks the body loaded are a row block of the activations,
    starting at row `b * 10000`, and the whole weight. -/
theorem pay_eq_prod (A0 : S100000x128.Idx → EReal) (A1 : S128x128.Idx → EReal)
    (x0 : Vec Ideal S10000x128 .f32) (x1 : Vec Ideal S128x128 .f32) (b : Nat)
    (h0 : ∀ (p : Fin 10000) (k : Fin 128) (r : Fin 100000), r.val = b * 10000 + p.val → x0 (ix2 p k) = A0 (ix2 r k))
    (h1 : ∀ (k q : Fin 128), x1 (ix2 k q) = A1 (ix2 k q))
    (j : S10000x128.Idx) (i : S100000x128.Idx) (hi0 : (i 0).val = b * 10000 + (j 0).val) (hi1 : (i 1).val = (j 1).val) :
    k4_pay1 (F := Ideal) x0 x1 j = prod A0 A1 i := by
  obtain ⟨p, q, rfl⟩ : ∃ (p : Fin 10000) (q : Fin 128), j = ix2 p q := ⟨j 0, j 1, eq_ix2 j⟩
  obtain ⟨r, s, rfl⟩ : ∃ (r : Fin 100000) (s : Fin 128), i = ix2 r s := ⟨i 0, i 1, eq_ix2 i⟩
  have hr : r.val = b * 10000 + p.val := hi0
  obtain rfl : s = q := Fin.ext hi1
  rw [pay_apply, prod_apply]
  exact Finset.sum_congr rfl fun k _ => by rw [h0 p k r hr, h1 k s]

/-! ## What a grid point writes back -/

section
variable (V : (c : Dev nD) → (b : Ref sig .tc) → Buf (Elt Ideal) ((c : Thread nD τ).loc b))

/-- An element of the activations' block at point `t` sits in the array `index * 10000` rows further down. -/
theorem emb0 (t : Fin cfg4.N) (p : Fin 10000) (k : Fin 128) (r : Fin 100000)
    (hr : r.val = win4_2.index t (0 : Fin 2) * 10000 + p.val) :
    ((cfg4.win 0).blk t).view.emb (ix2 p k) = ix2 r k := by
  obtain ⟨e0, e1, e2, e3, e4, e5⟩ := idx_facts t
  funext a; apply Fin.ext
  match a with
  | ⟨0, _⟩ => show win4_0.index t (0 : Fin 2) * 10000 + 1 * p.val = r.val; omega
  | ⟨1, _⟩ => show win4_0.index t (1 : Fin 2) * 128 + 1 * k.val = k.val; omega

/-- The weight's block at any point is the whole weight. -/
theorem emb1 (t : Fin cfg4.N) (k q : Fin 128) :
    ((cfg4.win 1).blk t).view.emb (ix2 k q) = ix2 k q := by
  obtain ⟨e0, e1, e2, e3, e4, e5⟩ := idx_facts t
  funext a; apply Fin.ext
  match a with
  | ⟨0, _⟩ => show win4_1.index t (0 : Fin 2) * 128 + 1 * k.val = k.val; omega
  | ⟨1, _⟩ => show win4_1.index t (1 : Fin 2) * 128 + 1 * q.val = q.val; omega

/-- Point `t` writes back block `t` of the product of the arrays as the region finds them. -/
theorem flushed_eq (c : Dev nD) (t : Fin cfg4.N) :
    (dat4 (F := Ideal) V c).flushed 2 t
      = ((cfg4.win 2).blk t).view.read (Elt Ideal) (prod (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S10000x128) hz, View.ld_unit_zero (S := S128x128) hz]
  funext j
  show k4_pay1 (F := Ideal) (iblk4 V c 0 t) (iblk4 V c 1 t) j
    = prod (V c (Pipeline.arrRef spec4 0)) (V c (Pipeline.arrRef spec4 1)) (((cfg4.win 2).blk t).view.emb j)
  refine pay_eq_prod _ _ (iblk4 V c 0 t) (iblk4 V c 1 t) (win4_2.index t (0 : Fin 2)) ?_ ?_ j _ ?_ ?_
  · intro p k r hr
    show V c (Pipeline.arrRef spec4 0) (((cfg4.win 0).blk t).view.emb (ix2 p k)) = V c (Pipeline.arrRef spec4 0) (ix2 r k)
    rw [emb0 t p k r hr]
  · intro k q
    show V c (Pipeline.arrRef spec4 1) (((cfg4.win 1).blk t).view.emb (ix2 k q)) = V c (Pipeline.arrRef spec4 1) (ix2 k q)
    rw [emb1 t k q]
  · show win4_2.index t (0 : Fin 2) * 10000 + 1 * (j 0).val = win4_2.index t (0 : Fin 2) * 10000 + (j 0).val; omega
  · obtain ⟨e0, e1, e2, e3, e4, e5⟩ := idx_facts t
    show win4_2.index t (1 : Fin 2) * 128 + 1 * (j 1).val = (j 1).val; omega

/-! ## The blocks cover the array -/

/-- An index of the output array is in point `t`'s block iff each coordinate is in the block's range on its axis. -/
theorem mem_blk (t : Fin cfg4.N) (i : S100000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v107).slice (win4_2.rect t)).set ↔ _
  rw [View.set_slice_whole, Rect.mem_set_unit]
  exact Iff.rfl

/-- Row `r` is in the block of the point whose block index is `r / 10000`. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := idx_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-! ## The output array after the region -/

/-- After the region the output array is the product of the two input arrays as the region found them. -/
theorem final_arr (c : Dev nD) :
    (dat4 (F := Ideal) V c).arrAt 2 cfg4.N = prod (V c (Pipeline.arrRef spec4 0)) (V c (Pipeline.arrRef spec4 1)) :=
  (dat4 V c).arrAt_eq_of_cover 2 _ (fun t _ => flushed_eq V c t) cover

/-- The same, index by index, with the two input arrays named. -/
theorem final (c : Dev nD) (r : Fin 100000) (q : Fin 128)
    (A0 : S100000x128.Idx → EReal) (A1 : S128x128.Idx → EReal)
    (h0 : V c (Pipeline.arrRef spec4 0) = A0) (h1 : V c (Pipeline.arrRef spec4 1) = A1) :
    (dat4 (F := Ideal) V c).arrAt 2 cfg4.N (ix2 r q) = ∑ k : Fin 128, A0 (ix2 r k) * A1 (ix2 k q) := by
  subst h0 h1
  rw [final_arr]; rfl

end

end Cert.KernelIdeal.Lin4

end
-- ==== Proof.Chain6.lean ====
/-
  Layer three up to its aggregate's operand: the weight matrix and the fifth launch (a matrix product).
-/
import proofs.«137361_j16638703305297_1_alg».proof.Proof.Chain5
import proofs.«137361_j16638703305297_1_alg».proof.Proof.Lin4

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

variable (m : (ℓ : Loc nD τ sig) → Buf (Elt Ideal) ℓ) (ρ : Dev nD → PrngReg)

set_option maxHeartbeats 2000000 in
/-- A launch leaves every buffer that is not one of its windows' arrays as it found it. -/
theorem carried12 (c : Dev nD) : Carried m c (W12 m ρ c) :=
  have h := carried11 m ρ c
  { v1 := (W12_of_ne m ρ c main_v1 (by decide)).trans h.v1
    v3 := (W12_of_ne m ρ c main_v3 (by decide)).trans h.v3
    v26 := (W12_of_ne m ρ c main_v26 (by decide)).trans h.v26
    a5 := (W12_of_ne m ρ c main_arg5 (by decide)).trans h.a5
    a6 := (W12_of_ne m ρ c main_arg6 (by decide)).trans h.a6
    a7 := (W12_of_ne m ρ c main_arg7 (by decide)).trans h.a7
    a8 := (W12_of_ne m ρ c main_arg8 (by decide)).trans h.a8
    a9 := (W12_of_ne m ρ c main_arg9 (by decide)).trans h.a9
    a10 := (W12_of_ne m ρ c main_arg10 (by decide)).trans h.a10 }

theorem W13_eq (c : Dev nD) : W13 m ρ c = StableHlo.after hostOps4 (W12 m ρ c) := rfl

set_option maxHeartbeats 4000000 in
/-- The stretch writes none of the carried buffers. -/
theorem carried13 (c : Dev nD) : Carried m c (W13 m ρ c) :=
  have h := carried12 m ρ c
  { v1 := by rw [W13_eq]; after_results_simp; exact h.v1
    v3 := by rw [W13_eq]; after_results_simp; exact h.v3
    v26 := by rw [W13_eq]; after_results_simp; exact h.v26
    a5 := by rw [W13_eq]; after_results_simp; exact h.a5
    a6 := by rw [W13_eq]; after_results_simp; exact h.a6
    a7 := by rw [W13_eq]; after_results_simp; exact h.a7
    a8 := by rw [W13_eq]; after_results_simp; exact h.a8
    a9 := by rw [W13_eq]; after_results_simp; exact h.a9
    a10 := by rw [W13_eq]; after_results_simp; exact h.a10 }

set_option maxHeartbeats 1000000 in
/-- The layer's weight matrix, sliced out of the stacked weights. -/
theorem W13_v106 (c : Dev nD) : W13 m ρ c (Proc.devRef .tc main_v106) = val_main_v123 (F := Ideal) (A5 m c) := by
  have h := carried12 m ρ c
  rw [W13_eq]; after_results_simp; rw [h.a5]; rfl

/-- The stretch leaves the previous layer's activations in place. -/
theorem W13_v104 (c : Dev nD) (hp : PreH m c) : W13 m ρ c (Proc.devRef .tc main_v104) = val_main_v121 (F := Ideal) (A0 m c) (A1 m c) (A2 m c) (A3 m c) (A4 m c) (A5 m c) (A6 m c) (A7 m c) (A8 m c) (A9 m c) (A10 m c) := by
  rw [W13_eq]; after_results_simp; exact W12_v104 m ρ c hp

set_option maxHeartbeats 2000000 in
/-- A launch leaves every buffer that is not one of its windows' arrays as it found it. -/
theorem carried14 (c : Dev nD) : Carried m c (W14 m ρ c) :=
  have h := carried13 m ρ c
  { v1 := (W14_of_ne m ρ c main_v1 (by decide)).trans h.v1
    v3 := (W14_of_ne m ρ c main_v3 (by decide)).trans h.v3
    v26 := (W14_of_ne m ρ c main_v26 (by decide)).trans h.v26
    a5 := (W14_of_ne m ρ c main_arg5 (by decide)).trans h.a5
    a6 := (W14_of_ne m ρ c main_arg6 (by decide)).trans h.a6
    a7 := (W14_of_ne m ρ c main_arg7 (by decide)).trans h.a7
    a8 := (W14_of_ne m ρ c main_arg8 (by decide)).trans h.a8
    a9 := (W14_of_ne m ρ c main_arg9 (by decide)).trans h.a9
    a10 := (W14_of_ne m ρ c main_arg10 (by decide)).trans h.a10 }

/-- The reference's matrix product read at an index: the sum over k of activation (r, k) times weight (k, c). -/
theorem v124_at (c : Dev nD) (r : Fin 100000) (q : Fin 128) :
    val_main_v124 (F := Ideal) (A0 m c) (A1 m c) (A2 m c) (A3 m c) (A4 m c) (A5 m c) (A6 m c) (A7 m c) (A8 m c) (A9 m c) (A10 m c) (ix2 r q)
      = ∑ k : Fin 128, val_main_v121 (F := Ideal) (A0 m c) (A1 m c) (A2 m c) (A3 m c) (A4 m c) (A5 m c) (A6 m c) (A7 m c) (A8 m c) (A9 m c) (A10 m c) (ix2 r k) * val_main_v123 (F := Ideal) (A5 m c) (ix2 k q) := by
  rw [val_main_v124_apply]
  refine Finset.sum_congr rfl fun k _ => ?_
  exact congrArg₂ (fun a b : EReal => a * b)
    (congrArg (val_main_v121 (F := Ideal) (A0 m c) (A1 m c) (A2 m c) (A3 m c) (A4 m c) (A5 m c) (A6 m c) (A7 m c) (A8 m c) (A9 m c) (A10 m c)) (funext fun a => Fin.ext (by match a with | ⟨0, _⟩ => rfl | ⟨1, _⟩ => rfl)))
    (congrArg (val_main_v123 (F := Ideal) (A5 m c)) (funext fun a => Fin.ext (by match a with | ⟨0, _⟩ => rfl | ⟨1, _⟩ => rfl)))

/-- The launch's output array is the reference's matrix product of the layer. -/
theorem W14_v107 (c : Dev nD) (hp : PreH m c) : W14 m ρ c (Proc.devRef .tc main_v107) = val_main_v124 (F := Ideal) (A0 m c) (A1 m c) (A2 m c) (A3 m c) (A4 m c) (A5 m c) (A6 m c) (A7 m c) (A8 m c) (A9 m c) (A10 m c) := by
  funext i
  obtain ⟨r, q, rfl⟩ : ∃ (r : Fin 100000) (q : Fin 128), i = ix2 r q := ⟨i 0, i 1, eq_ix2 i⟩
  refine (congrFun (W14_arr m ρ c 2) (ix2 r q)).trans ?_
  exact (Cert.KernelIdeal.Lin4.final (V13 m ρ) c r q _ _ (W13_v104 m ρ c hp) (W13_v106 m ρ c)).trans (v124_at m c r q).symm

/-- The launch reads the previous activations through an input window and leaves them in place. -/
theorem W14_v104 (c : Dev nD) (hp : PreH m c) : W14 m ρ c (Proc.devRef .tc main_v104) = val_main_v121 (F := Ideal) (A0 m c) (A1 m c) (A2 m c) (A3 m c) (A4 m c) (A5 m c) (A6 m c) (A7 m c) (A8 m c) (A9 m c) (A10 m c) :=
  (W14_arr m ρ c 0).trans ((((dat4 (V13 m ρ) c).arrAt_in 0 rfl _).trans (A_eq4 (V13 m ρ) c 0)).trans (W13_v104 m ρ c hp))

end Cert.KernelIdeal.Chain

end
-- ==== Proof.Chain7.lean ====
/-
  Layer three's aggregate, folded scale and folded shift, and the previous activations kept for the residual.
-/
import proofs.«137361_j16638703305297_1_alg».proof.Proof.Chain6

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

variable (m : (ℓ : Loc nD τ sig) → Buf (Elt Ideal) ℓ) (ρ : Dev nD → PrngReg)

theorem W15_eq (c : Dev nD) : W15 m ρ c = StableHlo.after hostOps5 (W14 m ρ c) := rfl

set_option maxHeartbeats 4000000 in
/-- The stretch writes none of the carried buffers. -/
theorem carried15 (c : Dev nD) : Carried m c (W15 m ρ c) :=
  have h := carried14 m ρ c
  { v1 := by rw [W15_eq]; after_results_simp; exact h.v1
    v3 := by rw [W15_eq]; after_results_simp; exact h.v3
    v26 := by rw [W15_eq]; after_results_simp; exact h.v26
    a5 := by rw [W15_eq]; after_results_simp; exact h.a5
    a6 := by rw [W15_eq]; after_results_simp; exact h.a6
    a7 := by rw [W15_eq]; after_results_simp; exact h.a7
    a8 := by rw [W15_eq]; after_results_simp; exact h.a8
    a9 := by rw [W15_eq]; after_results_simp; exact h.a9
    a10 := by rw [W15_eq]; after_results_simp; exact h.a10 }

set_option maxHeartbeats 2000000 in
/-- The layer's aggregate: gather, scale and scatter-add of the layer's product. -/
theorem W15_v120 (c : Dev nD) (hp : PreH m c) : W15 m ρ c (Proc.devRef .tc main_v120) = val_main_v137 (F := Ideal) (A0 m c) (A1 m c) (A2 m c) (A3 m c) (A4 m c) (A5 m c) (A6 m c) (A7 m c) (A8 m c) (A9 m c) (A10 m c) := by
  have h := carried14 m ρ c
  rw [W15_eq]; after_results_simp; rw [W14_v107 m ρ c hp, h.v1, h.v3, h.v26]; rfl

set_option maxHeartbeats 2000000 in
/-- The layer's folded scale, as a one-row matrix. -/
theorem W15_v138 (c : Dev nD) : W15 m ρ c (Proc.devRef .tc main_v138)
    = shapeCast S1x128 (val_main_v155 (F := Ideal) (A7 m c) (A10 m c)) shapeCasts_S128_S1x128 := by
  have h := carried14 m ρ c
  rw [W15_eq]; after_results_simp; rw [h.a7, h.a10]; rfl

set_option maxHeartbeats 2000000 in
/-- The layer's folded shift, as a one-row matrix. -/
theorem W15_v139 (c : Dev nD) : W15 m ρ c (Proc.devRef .tc main_v139)
    = shapeCast S1x128 (shiftVec (val_main_v139 (F := Ideal) (A6 m c)) (val_main_v144 (F := Ideal) (A9 m c)) (val_main_v155 (F := Ideal) (A7 m c) (A10 m c)) (val_main_v160 (F := Ideal) (A8 m c))) shapeCasts_S128_S1x128 := by
  have h := carried14 m ρ c
  rw [W15_eq]; after_results_simp; rw [h.a6, h.a7, h.a8, h.a9, h.a10]; rfl

set_option maxHeartbeats 2000000 in
/-- The stretch leaves the previous layer's activations in place. -/
theorem W15_v104 (c : Dev nD) (hp : PreH m c) : W15 m ρ c (Proc.devRef .tc main_v104) = val_main_v121 (F := Ideal) (A0 m c) (A1 m c) (A2 m c) (A3 m c) (A4 m c) (A5 m c) (A6 m c) (A7 m c) (A8 m c) (A9 m c) (A10 m c) := by
  rw [W15_eq]; after_results_simp; exact W14_v104 m ρ c hp

end Cert.KernelIdeal.Chain

end
-- ==== Proof.Post5.lean ====
/- Region 5 (scale, shift, clamp at zero, then add half of the previous activations), read index by index. Each grid point t
   handles rows 10000·t … 10000·t + 9999 of a 100000 × 128 array: it multiplies the block by the scale row, adds the shift row, takes
   the maximum with zero and adds one half times the same rows of the previous activations. The ten row blocks tile the array, so
   after the region the output array holds, at (r, q), max (agg (r, q) · scale (0, q) + shift (0, q)) 0 + ½ · prev (r, q) of the
   input arrays as the region finds them. -/
import proofs.«137361_j16638703305297_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Post5

open Idealize.ShloMosaic Idealize.ShloMosaic.TcCoe Idealize.ShloMosaic.ValueIdx Cert.KernelIdeal Cert.KernelIdeal.Gen

/-- The zero offsets of a whole-buffer access, however they are spelt. -/
theorem hz : (![0, 0] : Fin 2 → Nat) = fun _ => 0 := funext fun a => by fin_cases a <;> rfl

/-- The array the region leaves, index by index: scale, shift, clamp below at zero, add half of the previous activations; the scale
    and the shift are rows read at the entry's column. -/
def G (A0 : S100000x128.Idx → EReal) (A1 A2 : S1x128.Idx → EReal) (A3 : S100000x128.Idx → EReal) : S100000x128.Idx → EReal :=
  fun i => max (A0 i * A1 (ix2 (0 : Fin 1) (i 1 : Fin 128)) + A2 (ix2 (0 : Fin 1) (i 1 : Fin 128))) (Ideal.ofBits .f32 0x00000000#32)
    + Ideal.ofBits .f32 0x3F000000#32 * A3 i

/-- The body's arithmetic at one entry of a block. -/
theorem pay_apply (x0 : Vec Ideal S10000x128 .f32) (x1 x2 : Vec Ideal S1x128 .f32) (x3 : Vec Ideal S10000x128 .f32) (p : Fin 10000) (q : Fin 128) :
    k5_pay1 x0 x1 x2 x3 (ix2 p q)
      = max (x0 (ix2 p q) * x1 (ix2 0 q) + x2 (ix2 0 q)) (Ideal.ofBits .f32 0x00000000#32)
        + Ideal.ofBits .f32 0x3F000000#32 * x3 (ix2 p q) := by
  unfold k5_pay1
  simp only [shapeCast_self]
  rw [addf_apply, maximumf_apply, addf_apply, mulf_apply, mulf_apply, broadcast_apply, broadcast_apply,
    broadcastTo_1b_ab_apply, broadcastTo_1b_ab_apply]
  rfl

/-- The same at an index not yet split into coordinates. -/
theorem pay_apply' (x0 : Vec Ideal S10000x128 .f32) (x1 x2 : Vec Ideal S1x128 .f32) (x3 : Vec Ideal S10000x128 .f32) (j : S10000x128.Idx) :
    k5_pay1 x0 x1 x2 x3 j
      = max (x0 j * x1 (ix2 (0 : Fin 1) (j 1 : Fin 128)) + x2 (ix2 (0 : Fin 1) (j 1 : Fin 128))) (Ideal.ofBits .f32 0x00000000#32)
        + Ideal.ofBits .f32 0x3F000000#32 * x3 j := by
  obtain ⟨p, q, rfl⟩ : ∃ (p : Fin 10000) (q : Fin 128), j = ix2 p q := ⟨j 0, j 1, eq_ix2 j⟩
  exact pay_apply x0 x1 x2 x3 p q

/-- The printed index maps, decided over the grid: the row-block windows move together, every other block index is zero. -/
theorem idx_facts : ∀ t : Fin cfg5.N, win5_0.index t (0 : Fin 2) = win5_4.index t (0 : Fin 2)
    ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = win5_4.index t (0 : Fin 2)
    ∧ win5_3.index t (1 : Fin 2) = 0
    ∧ win5_4.index t (1 : Fin 2) = 0 ∧ win5_4.index t (0 : Fin 2) ≤ 9 :=
  (by decide +kernel : ∀ t : Fin grid5.N, _)

/-- Every row block is some point's. -/
theorem idx_onto : ∀ q0 : Fin 10, ∃ t : Fin cfg5.N, win5_4.index t = ![q0.val, 0] :=
  (by decide +kernel : ∀ q0 : Fin 10, ∃ t : Fin grid5.N, win5_4.index t = ![q0.val, 0])

section
variable (V : (c : Dev nD) → (b : Ref sig .tc) → Buf (Elt Ideal) ((c : Thread nD τ).loc b))

/-- An entry of window 0's block at point t is the array's entry at block index × block size + the coordinate inside. -/
theorem blk0_apply (c : Dev nD) (t : Fin cfg5.N) (y : S10000x128.Idx) (i : S100000x128.Idx)
    (h0 : win5_0.index t (0 : Fin 2) * 10000 + 1 * (y 0).val = (i 0).val)
    (h1 : win5_0.index t (1 : Fin 2) * 128 + 1 * (y 1).val = (i 1).val) :
    (iblk5 V c 0 t : Vec Ideal S10000x128 .f32) y = (V c (Pipeline.arrRef spec5 0) : S100000x128.Idx → EReal) i := by
  unfold iblk5
  rw [View.read_apply]
  show V c (Pipeline.arrRef spec5 0) _ = V c (Pipeline.arrRef spec5 0) _
  refine congrArg _ (funext fun a => Fin.ext ?_)
  match a with
  | ⟨0, _⟩ => exact h0
  | ⟨1, _⟩ => exact h1

/-- An entry of the scale row's block is the row's entry at the same column (its block index is zero on both axes). -/
theorem blk1_apply (c : Dev nD) (t : Fin cfg5.N) (y : S1x128.Idx) (i : S1x128.Idx)
    (h0 : win5_1.index t (0 : Fin 2) * 1 + 1 * (y 0).val = (i 0).val)
    (h1 : win5_1.index t (1 : Fin 2) * 128 + 1 * (y 1).val = (i 1).val) :
    (iblk5 V c 1 t : Vec Ideal S1x128 .f32) y = (V c (Pipeline.arrRef spec5 1) : S1x128.Idx → EReal) i := by
  unfold iblk5
  rw [View.read_apply]
  show V c (Pipeline.arrRef spec5 1) _ = V c (Pipeline.arrRef spec5 1) _
  refine congrArg _ (funext fun a => Fin.ext ?_)
  match a with
  | ⟨0, _⟩ => exact h0
  | ⟨1, _⟩ => exact h1

/-- The same for the shift row. -/
theorem blk2_apply (c : Dev nD) (t : Fin cfg5.N) (y : S1x128.Idx) (i : S1x128.Idx)
    (h0 : win5_2.index t (0 : Fin 2) * 1 + 1 * (y 0).val = (i 0).val)
    (h1 : win5_2.index t (1 : Fin 2) * 128 + 1 * (y 1).val = (i 1).val) :
    (iblk5 V c 2 t : Vec Ideal S1x128 .f32) y = (V c (Pipeline.arrRef spec5 2) : S1x128.Idx → EReal) i := by
  unfold iblk5
  rw [View.read_apply]
  show V c (Pipeline.arrRef spec5 2) _ = V c (Pipeline.arrRef spec5 2) _
  refine congrArg _ (funext fun a => Fin.ext ?_)
  match a with
  | ⟨0, _⟩ => exact h0
  | ⟨1, _⟩ => exact h1

/-- An entry of the previous activations' block at point t, as for window 0. -/
theorem blk3_apply (c : Dev nD) (t : Fin cfg5.N) (y : S10000x128.Idx) (i : S100000x128.Idx)
    (h0 : win5_3.index t (0 : Fin 2) * 10000 + 1 * (y 0).val = (i 0).val)
    (h1 : win5_3.index t (1 : Fin 2) * 128 + 1 * (y 1).val = (i 1).val) :
    (iblk5 V c 3 t : Vec Ideal S10000x128 .f32) y = (V c (Pipeline.arrRef spec5 3) : S100000x128.Idx → EReal) i := by
  unfold iblk5
  rw [View.read_apply]
  show V c (Pipeline.arrRef spec5 3) _ = V c (Pipeline.arrRef spec5 3) _
  refine congrArg _ (funext fun a => Fin.ext ?_)
  match a with
  | ⟨0, _⟩ => exact h0
  | ⟨1, _⟩ => exact h1

/-- What point t writes back is block t of G of the arrays as the region finds them. -/
theorem flushed_eq (c : Dev nD) (t : Fin cfg5.N) :
    (dat5 V c).flushed 4 t = ((cfg5.win 4).blk t).view.read (Elt Ideal)
      (G (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero hz]
  simp only [View.ld_unit_zero (S := S10000x128) hz, View.ld_unit_zero (S := S1x128) hz]
  obtain ⟨e0, e1, e2, e3, e4, e5, e6, e7, e8, e9⟩ := idx_facts t
  funext j
  have hj0 : (j 0).val < 10000 := (j 0).isLt
  have hj1 : (j 1).val < 128 := (j 1).isLt
  refine (pay_apply' (iblk5 V c 0 t) (iblk5 V c 1 t) (iblk5 V c 2 t) (iblk5 V c 3 t) ((cfg5.win 4).xinj (grid5.coords t) j)).trans ?_
  rw [blk0_apply V c t ((cfg5.win 4).xinj (grid5.coords t) j) (((cfg5.win 4).blk t).view.emb j)
        (by show win5_0.index t (0 : Fin 2) * 10000 + 1 * (j 0).val = win5_4.index t (0 : Fin 2) * 10000 + 1 * (j 0).val; omega)
        (by show win5_0.index t (1 : Fin 2) * 128 + 1 * (j 1).val = win5_4.index t (1 : Fin 2) * 128 + 1 * (j 1).val; omega),
      blk1_apply V c t (ix2 (0 : Fin 1) ((cfg5.win 4).xinj (grid5.coords t) j 1 : Fin 128)) (ix2 (0 : Fin 1) ((((cfg5.win 4).blk t).view.emb j) 1 : Fin 128))
        (by show win5_1.index t (0 : Fin 2) * 1 + 1 * 0 = 0; omega)
        (by show win5_1.index t (1 : Fin 2) * 128 + 1 * (j 1).val = win5_4.index t (1 : Fin 2) * 128 + 1 * (j 1).val; omega),
      blk2_apply V c t (ix2 (0 : Fin 1) ((cfg5.win 4).xinj (grid5.coords t) j 1 : Fin 128)) (ix2 (0 : Fin 1) ((((cfg5.win 4).blk t).view.emb j) 1 : Fin 128))
        (by show win5_2.index t (0 : Fin 2) * 1 + 1 * 0 = 0; omega)
        (by show win5_2.index t (1 : Fin 2) * 128 + 1 * (j 1).val = win5_4.index t (1 : Fin 2) * 128 + 1 * (j 1).val; omega),
      blk3_apply V c t ((cfg5.win 4).xinj (grid5.coords t) j) (((cfg5.win 4).blk t).view.emb j)
        (by show win5_3.index t (0 : Fin 2) * 10000 + 1 * (j 0).val = win5_4.index t (0 : Fin 2) * 10000 + 1 * (j 0).val; omega)
        (by show win5_3.index t (1 : Fin 2) * 128 + 1 * (j 1).val = win5_4.index t (1 : Fin 2) * 128 + 1 * (j 1).val; omega)]
  rfl

/-- An index of the array is in point t's block iff each coordinate is in the block's range on its axis. -/
theorem mem_blk (t : Fin cfg5.N) (i : S100000x128.Idx) :
    i ∈ ((cfg5.win 4).blk t).view.set ↔ ∀ a : Fin 2, win5_4.index t a * S10000x128.size a ≤ (i a).val ∧ (i a).val < win5_4.index t a * S10000x128.size a + S10000x128.size a := by
  show i ∈ ((View.whole main_v140).slice (win5_4.rect t)).set ↔ _
  rw [View.set_slice_whole, Rect.mem_set_unit]
  exact Iff.rfl

/-- Row r lies in the block of the point whose block index is r / 10000. -/
theorem cover (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  obtain ⟨t, ht⟩ := idx_onto ⟨(i 0).val / 10000, by omega⟩
  have q0 : win5_4.index t (0 : Fin 2) = (i 0).val / 10000 := congrFun ht 0
  have q1 : win5_4.index t (1 : Fin 2) = 0 := congrFun ht 1
  refine ⟨t, flush5_4 t, ?_⟩
  rw [mem_blk]
  intro a
  match a with
  | ⟨0, _⟩ => show win5_4.index t (0 : Fin 2) * 10000 ≤ (i 0).val ∧ (i 0).val < win5_4.index t (0 : Fin 2) * 10000 + 10000; omega
  | ⟨1, _⟩ => show win5_4.index t (1 : Fin 2) * 128 ≤ (i 1).val ∧ (i 1).val < win5_4.index t (1 : Fin 2) * 128 + 128; omega

/-- The output array after the region is G of the input arrays at the region's entry. -/
theorem final_arr (c : Dev nD) :
    (dat5 V c).arrAt 4 cfg5.N = G (V c (Pipeline.arrRef spec5 0)) (V c (Pipeline.arrRef spec5 1)) (V c (Pipeline.arrRef spec5 2)) (V c (Pipeline.arrRef spec5 3)) :=
  (dat5 V c).arrAt_eq_of_cover 4 _ (fun t _ => flushed_eq V c t) cover

end

/-- G at an entry. -/
theorem G_apply (A0 : S100000x128.Idx → EReal) (A1 A2 : S1x128.Idx → EReal) (A3 : S100000x128.Idx → EReal) (r : Fin 100000) (q : Fin 128) :
    G A0 A1 A2 A3 (ix2 r q) = max (A0 (ix2 r q) * A1 (ix2 0 q) + A2 (ix2 0 q)) (Ideal.ofBits .f32 0x00000000#32)
      + Ideal.ofBits .f32 0x3F000000#32 * A3 (ix2 r q) := rfl

/-- The output array after the region, entry by entry, the input arrays at the region's entry named A0, A1, A2, A3. -/
theorem final (V : (c : Dev nD) → (b : Ref sig .tc) → Buf (Elt Ideal) ((c : Thread nD τ).loc b)) (c : Dev nD) (r : Fin 100000) (q : Fin 128)
    (A0 : S100000x128.Idx → EReal) (A1 A2 : S1x128.Idx → EReal) (A3 : S100000x128.Idx → EReal)
    (h0 : V c (Pipeline.arrRef spec5 0) = A0) (h1 : V c (Pipeline.arrRef spec5 1) = A1) (h2 : V c (Pipeline.arrRef spec5 2) = A2)
    (h3 : V c (Pipeline.arrRef spec5 3) = A3) :
    (dat5 (F := Ideal) V c).arrAt 4 cfg5.N (ix2 r q)
      = max (A0 (ix2 r q) * A1 (ix2 0 q) + A2 (ix2 0 q)) (Ideal.ofBits .f32 0x00000000#32)
        + Ideal.ofBits .f32 0x3F000000#32 * A3 (ix2 r q) := by
  subst h0 h1 h2 h3
  exact (congrFun (final_arr V c) (ix2 r q)).trans rfl

end Cert.KernelIdeal.Post5
end
-- ==== Proof.Chain8.lean ====
/-
  The result.

  The sixth launch applies the folded batch-norm map and the rectifier to the third aggregate and adds half
  the second layer's activations: the program's result is the reference's.
-/
import proofs.«137361_j16638703305297_1_alg».proof.Proof.Chain7
import proofs.«137361_j16638703305297_1_alg».proof.Proof.Post5

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

variable (m : (ℓ : Loc nD τ sig) → Buf (Elt Ideal) ℓ) (ρ : Dev nD → PrngReg)

/-- The last launch's output is the reference's result. -/
theorem W16_v140 (c : Dev nD) (hp : PreH m c) : W16 m ρ c (Proc.devRef .tc main_v140) = val_main_v167 (F := Ideal) (A0 m c) (A1 m c) (A2 m c) (A3 m c) (A4 m c) (A5 m c) (A6 m c) (A7 m c) (A8 m c) (A9 m c) (A10 m c) := by
  funext i
  obtain ⟨r, q, rfl⟩ : ∃ (r : Fin 100000) (q : Fin 128), i = ix2 r q := ⟨i 0, i 1, eq_ix2 i⟩
  refine (congrFun (W16_arr m ρ c 4) (ix2 r q)).trans ?_
  refine (Cert.KernelIdeal.Post5.final (V15 m ρ) c r q _ _ _ _
    (W15_v120 m ρ c hp) (W15_v138 m ρ c) (W15_v139 m ρ c) (W15_v104 m ρ c hp)).trans ?_
  have s1 := shapeCast_a_1a_apply (val_main_v155 (F := Ideal) (A7 m c) (A10 m c)) shapeCasts_S128_S1x128 (0 : Fin 1) q
  have s2 := shapeCast_a_1a_apply (shiftVec (val_main_v139 (F := Ideal) (A6 m c)) (val_main_v144 (F := Ideal) (A9 m c)) (val_main_v155 (F := Ideal) (A7 m c) (A10 m c)) (val_main_v160 (F := Ideal) (A8 m c))) shapeCasts_S128_S1x128 (0 : Fin 1) q
  refine (congrArg₂ (fun a b : EReal => max (val_main_v137 (F := Ideal) (A0 m c) (A1 m c) (A2 m c) (A3 m c) (A4 m c) (A5 m c) (A6 m c) (A7 m c) (A8 m c) (A9 m c) (A10 m c) (ix2 r q) * a + b) (Ideal.ofBits .f32 0x00000000#32) + Ideal.ofBits .f32 0x3F000000#32 * val_main_v121 (F := Ideal) (A0 m c) (A1 m c) (A2 m c) (A3 m c) (A4 m c) (A5 m c) (A6 m c) (A7 m c) (A8 m c) (A9 m c) (A10 m c) (ix2 r q)) s1 s2).trans ?_
  exact (Cert.ReferenceIdeal.RefLayer.layer2 (A0 m c) (A1 m c) (A2 m c) (A3 m c) (A4 m c) (A5 m c) (A6 m c) (A7 m c) (A8 m c) (A9 m c) (A10 m c) hp.h6 hp.h7 hp.h9 hp.h10 hp.hpos r q).symm

end Cert.KernelIdeal.Chain

end
-- ==== Proof.RunRead.lean ====
/-
  The reference's result, as its run states it, is the last of its staged functions applied to the arguments:
  both are the same composition of the program's operations.
-/
import proofs.«137361_j16638703305297_1_alg».proof.Proof.RunP
import proofs.«137361_j16638703305297_1_alg».proof.Proof.ReadP

noncomputable section

namespace Cert.ReferenceIdeal.RunRead

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxRecDepth 16384 in
/-- The run's result term is the last stage. -/
theorem res_eq (m : (ℓ : Loc nD τ sig) → Buf (Elt F) ℓ) (c : Dev nD) :
    Cert.ReferenceIdeal.ValueP.res_main_v167 m c = val_main_v167 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.ValueP.res_main_v167; rfl

end Cert.ReferenceIdeal.RunRead

end
-- ==== Proof.PreFacts.lean ====
/-
  What the precondition `finite_inputs` gives, read at the extended reals.

  The printed predicate is a conjunction (`and` of `i1` scalars) of one `all` per float argument,
  `all (|x| < +∞)`, and, last, `all (x10 ≥ 0)` for the batch-norm variance.  An extended real whose
  absolute value `max x (-x)` is below `⊤` is neither `⊥` nor `⊤`: it is a real.  So, of a value of
  the predicate that is 1, every entry of the bias (x6), the scale weight (x7), the running mean (x9) and the
  running variance (x10) is a real, and every entry of the variance is nonnegative.  Stated over variables,
  so it does not depend on where the arrays live.
-/
import proofs.«137361_j16638703305297_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.PreFacts

open Idealize.ShloMosaic Cert.Pre_finite_inputs

variable [Cert.Pre_finite_inputs.Facts]

/-- The scalar shape has one index. -/
instance : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value is below +∞ is a real. -/
theorem real_of_abs_lt_inf (x : EReal)
    (h : Ideal.cmp .olt (max x (-x)) (Ideal.ofBits .f32 0x7F800000#32) = 1#1) :
    ∃ v : ℝ, x = (v : EReal) := by
  rw [ofBits_inf] at h
  induction x using EReal.rec with
  | bot => simp [Ideal.cmp] at h
  | coe v => exact ⟨v, rfl⟩
  | top => simp [Ideal.cmp] at h

/-- An extended real that compares ≥ the zero pattern is nonnegative. -/
theorem nonneg_of_ge_zero (x : EReal)
    (h : Ideal.cmp .oge x (Ideal.ofBits .f32 0x00000000#32) = 1#1) : (0 : EReal) ≤ x := by
  rw [Ideal.ofBits_zero_f32] at h
  by_contra hx
  simp [Ideal.cmp, hx] at h

/-- The precondition decoded: bias, scale weight, mean and variance are real arrays, and the variance is
    nonnegative. -/
theorem of_fn (x0 : IVec S2x1600000 32) (x1 : FVec Ideal S100000x6 .f32) (x2 : FVec Ideal S100000x122 .f32)
    (x3 : FVec Ideal S6x6 .f32) (x4 : FVec Ideal S6 .f32) (x5 : FVec Ideal S3x128x128 .f32)
    (x6 x7 x8 x9 x10 : FVec Ideal S3x128 .f32)
    (h : Cert.Pre_finite_inputs.fn (F := Ideal) x0 x1 x2 x3 x4 x5 x6 x7 x8 x9 x10 = fun _ => 1#1) :
    (∀ i, ∃ v : ℝ, x6 i = (v : EReal)) ∧ (∀ i, ∃ v : ℝ, x7 i = (v : EReal))
      ∧ (∀ i, ∃ v : ℝ, x9 i = (v : EReal)) ∧ (∀ i, ∃ v : ℝ, x10 i = (v : EReal))
      ∧ (∀ i, (0 : EReal) ≤ x10 i) := by
  have e := congrFun h ValueIdx.ix0
  dsimp only [fn, fn_part1, fn_part2, fn_part3] at e
  -- the conjunction, last conjunct first: variance ≥ 0, then |x10|, |x9|, |x8|, |x7|, |x6| < +∞
  obtain ⟨e, e51⟩ := IntOp.andi_eq_one.1 e
  obtain ⟨e, e47⟩ := IntOp.andi_eq_one.1 e
  obtain ⟨e, e42⟩ := IntOp.andi_eq_one.1 e
  obtain ⟨e, e37⟩ := IntOp.andi_eq_one.1 e
  obtain ⟨e, e32⟩ := IntOp.andi_eq_one.1 e
  obtain ⟨e, e27⟩ := IntOp.andi_eq_one.1 e
  refine ⟨fun i => ?_, fun i => ?_, fun i => ?_, fun i => ?_, fun i => ?_⟩
  · exact real_of_abs_lt_inf _ (Host.reduce_andi_all _ _ _ _ _ e27 i)
  · exact real_of_abs_lt_inf _ (Host.reduce_andi_all _ _ _ _ _ e32 i)
  · exact real_of_abs_lt_inf _ (Host.reduce_andi_all _ _ _ _ _ e42 i)
  · exact real_of_abs_lt_inf _ (Host.reduce_andi_all _ _ _ _ _ e47 i)
  · exact nonneg_of_ge_zero _ (Host.reduce_andi_all _ _ _ _ _ e51 i)

end Cert.PreFacts

end
-- ==== Proof.PreBridge.lean ====
/-
  The precondition read on the kernel program's memory: on every device the bias, scale-weight, running-mean and
  running-variance argument arrays hold reals, and every entry of the variance is nonnegative.  It is the decoded
  precondition (PreFacts.of_fn) at the arrays the memory holds at the program's argument buffers.
-/
import proofs.«137361_j16638703305297_1_alg».proof.Defs
import proofs.«137361_j16638703305297_1_alg».proof.Proof.Gen.Pre_finite_inputs
import proofs.«137361_j16638703305297_1_alg».proof.Proof.Chain0
import proofs.«137361_j16638703305297_1_alg».proof.Proof.PreFacts

namespace Cert.Proof.PreBridge

open Idealize.ShloMosaic Idealize.SL.Sem

theorem preH (m : (ℓ : Loc Cert.KernelIdeal.nD Cert.KernelIdeal.τ Cert.KernelIdeal.sig) → Buf (Elt Ideal) ℓ)
    (h : Cert.Pre_KernelIdeal m) (c : Dev Cert.KernelIdeal.nD) : Cert.KernelIdeal.Chain.PreH m c := by
  obtain ⟨h6, h7, h9, h10, hpos⟩ := Cert.PreFacts.of_fn _ _ _ _ _ _ _ _ _ _ _ (h c)
  exact ⟨h6, h7, h9, h10, hpos⟩

end Cert.Proof.PreBridge
-- ==== Proof.Claims.lean ====
/-
  The five claims.

  The three frames are the generated frames of the two kernel programs and, for the reference, its run with
  the result dropped.  The idealization rewrote nothing, so there is nothing to preserve.  For the algebraic
  claim the idealized kernel program's run ends with its result buffer at the contents the last launch leaves,
  and those are the reference's last stage applied to the kernel program's arguments (the chain of modules
  Chain0 … Chain8: the same host operations on both sides, each matrix-product launch against the
  reference's matrix product, each pointwise launch against the reference's batch-norm, rectifier and
  residual, where the precondition — finite parameters, non-negative variance — makes the bias, the mean
  and the scale real so that the affine map folds).  The reference's run ends at that same stage of its own
  arguments, which agree with the kernel program's.
-/
import proofs.«137361_j16638703305297_1_alg».proof.Defs
import proofs.«137361_j16638703305297_1_alg».proof.Proof.Gen.Kernel
import proofs.«137361_j16638703305297_1_alg».proof.Proof.Gen.Kernel.Frame
import proofs.«137361_j16638703305297_1_alg».proof.Proof.Gen.KernelIdeal
import proofs.«137361_j16638703305297_1_alg».proof.Proof.Gen.KernelIdeal.Frame
import proofs.«137361_j16638703305297_1_alg».proof.Proof.Gen.ReferenceIdeal
import proofs.«137361_j16638703305297_1_alg».proof.Proof.Gen.Pre_finite_inputs
import proofs.«137361_j16638703305297_1_alg».proof.Proof.KRun
import proofs.«137361_j16638703305297_1_alg».proof.Proof.Chain8
import proofs.«137361_j16638703305297_1_alg».proof.Proof.RunRead
import proofs.«137361_j16638703305297_1_alg».proof.Proof.PreBridge

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Gen.W16 m ρ c (Proc.devRef .tc Cert.KernelIdeal.main_v140), Cert.KernelIdeal.KRun.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RunRead.res_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2.1, (hagree c).2.2.2.2.2.2.2.2.2.2]
  exact (Cert.KernelIdeal.Chain.W16_v140 m ρ c (Cert.Proof.PreBridge.preH m hpre c)).symm

end Cert.Proof.Claims

end
-- ==== Proof.lean ====
/-
  The certificate of a three-layer graph convolution network against its plain reference, at the extended reals.

  Each layer multiplies the node activations by a weight matrix, gathers the product's rows at the edges'
  sources, scales them by the symmetric degree normalisation, scatter-adds them at the destinations, applies a
  batch-norm affine map and a rectifier, and (after the first layer) adds half the previous activations.  The
  kernel program runs the matrix product and the affine-rectifier-residual step as launches over ten row
  blocks, with the affine map folded into a scale and a shift; the reference spells the map out.  The two agree
  at every index when the bias, the mean and the scale gamma·rsqrt(var + eps) are real numbers, which the
  precondition (finite parameters, non-negative running variance) provides; the aggregate itself may be any
  extended real.  The claims are proved in Proof/Claims.lean; here they are assembled behind the witnesses of the
  programs' stated facts.
-/
import proofs.«137361_j16638703305297_1_alg».proof.Defs
import proofs.«137361_j16638703305297_1_alg».proof.Proof.Gen.Kernel
import proofs.«137361_j16638703305297_1_alg».proof.Proof.Gen.Kernel.Skeleton
import proofs.«137361_j16638703305297_1_alg».proof.Proof.Gen.Kernel.Launch
import proofs.«137361_j16638703305297_1_alg».proof.Proof.Gen.Kernel.Points
import proofs.«137361_j16638703305297_1_alg».proof.Proof.Gen.Kernel.Frame
import proofs.«137361_j16638703305297_1_alg».proof.Proof.Gen.KernelIdeal
import proofs.«137361_j16638703305297_1_alg».proof.Proof.Gen.KernelIdeal.Skeleton
import proofs.«137361_j16638703305297_1_alg».proof.Proof.Gen.KernelIdeal.Launch
import proofs.«137361_j16638703305297_1_alg».proof.Proof.Gen.KernelIdeal.Points
import proofs.«137361_j16638703305297_1_alg».proof.Proof.Gen.KernelIdeal.Frame
import proofs.«137361_j16638703305297_1_alg».proof.Proof.Gen.ReferenceIdeal
import proofs.«137361_j16638703305297_1_alg».proof.Proof.Gen.Pre_finite_inputs
import proofs.«137361_j16638703305297_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
